-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x40 .f32) (main_arg5 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg4
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x512 : Shape := ⟨2, ![5000, 512]⟩
abbrev S5000x16 : Shape := ⟨2, ![5000, 16]⟩
abbrev S3300000x16 : Shape := ⟨2, ![3300000, 16]⟩
abbrev S1x16 : Shape := ⟨2, ![1, 16]⟩
abbrev S10000x16 : Shape := ⟨2, ![10000, 16]⟩
abbrev S100000x40 : Shape := ⟨2, ![100000, 40]⟩
abbrev S10000x40 : Shape := ⟨2, ![10000, 40]⟩
abbrev S3300000x40 : Shape := ⟨2, ![3300000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 84
  | .vmem => 20
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x40, .f32⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S3300000x40, .f32⟩
  | .hbm, ⟨75, _⟩ => ⟨S3300000x1, .f32⟩
  | .hbm, ⟨76, _⟩ => ⟨S3300000x40, .f32⟩
  | .hbm, ⟨77, _⟩ => ⟨S3300000x40, .f32⟩
  | .hbm, ⟨78, _⟩ => ⟨S_, .f32⟩
  | .hbm, ⟨79, _⟩ => ⟨S100000x40, .f32⟩
  | .hbm, ⟨80, _⟩ => ⟨S3300000x1, .i32⟩
  | .hbm, ⟨81, _⟩ => ⟨S100000x40, .f32⟩
  | .hbm, ⟨82, _⟩ => ⟨S1x40, .f32⟩
  | .hbm, ⟨83, _⟩ => ⟨S100000x40, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S10000x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S16x40, .f32⟩
  | .local _ .vmem, ⟨13, _⟩ => ⟨S10000x40, .f32⟩
  | .local _ .vmem, ⟨14, _⟩ => ⟨S10000x40, .f32⟩
  | .local _ .vmem, ⟨15, _⟩ => ⟨S10000x40, .f32⟩
  | .local _ .vmem, ⟨16, _⟩ => ⟨S10000x40, .f32⟩
  | .local _ .vmem, ⟨17, _⟩ => ⟨S1x40, .f32⟩
  | .local _ .vmem, ⟨18, _⟩ => ⟨S10000x40, .f32⟩
  | .local _ .vmem, ⟨19, _⟩ => ⟨S10000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x40_S16x40_0_0 : ∀ a, (![0, 0] : Fin 2 → Nat) a + S16x40.size a ≤ S16x40.size a
  h_S16x40 : 0 < S16x40.numel
  inb_S10000x40_S10000x40_0_0 : ∀ a, (![0, 0] : Fin 2 → Nat) a + S10000x40.size a ≤ S10000x40.size a
  h_S10000x40 : 0 < S10000x40.numel
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  shapeCasts_S40_S1x40 : S40.ShapeCasts S1x40
  shapeCasts_S10000x40_S10000x40 : S10000x40.ShapeCasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  reduces_S10000x40_S10000 : S10000x40.Reduces [1] S10000
  shapeCasts_S10000_S10000x1 : S10000.ShapeCasts S10000x1
  broadcasts_S10000x1_S10000x40 : S10000x1.Broadcasts S10000x40
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x512_S512x16_S5000x16_1_0_0_1_n_n_wf : DotDims.WF S5000x512 S512x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x40_S10000x40_1_0_0_1_n_n_wf : DotDims.WF S10000x16 S16x40 S10000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S100000x16.size a
  hwx1_2 : ∀ i : grid1.Coords, EltTy.bits .f32 = 32 ∨ (Rect.block (s := S100000x16) S10000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x40.size a ≤ S16x40.size a
  hwx2_1 : ∀ i : grid2.Coords, EltTy.bits .f32 = 32 ∨ (Rect.block (s := S16x40) S16x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x40.size a ≤ S100000x40.size a
  hwx2_2 : ∀ i : grid2.Coords, EltTy.bits .f32 = 32 ∨ (Rect.block (s := S100000x40) S10000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x40.size a ≤ S100000x40.size a
  hwx3_0 : ∀ i : grid3.Coords, EltTy.bits .f32 = 32 ∨ (Rect.block (s := S100000x40) S10000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x40.size a ≤ S100000x40.size a
  hwx3_2 : ∀ i : grid3.Coords, EltTy.bits .f32 = 32 ∨ (Rect.block (s := S100000x40) S10000x40.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x40_S10000x40_1_0_0_1_n_n : DotDims S10000x16 S16x40 S10000x40 where
  lhsContracting := [1]
  rhsContracting := [0]
  lhsNonContracting := [0]
  rhsNonContracting := [1]
  lhsBatch := []
  rhsBatch := []
  wf := dot_S10000x16_S16x40_S10000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x40 : Shape := ⟨2, ![100000, 40]⟩
abbrev S3300000x40 : Shape := ⟨2, ![3300000, 40]⟩
abbrev S1x40 : Shape := ⟨2, ![1, 40]⟩
abbrev S100000x1 : Shape := ⟨2, ![100000, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x40, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x40, .f32⟩
  | .hbm, ⟨79, _⟩ => ⟨S3300000x1, .f32⟩
  | .hbm, ⟨80, _⟩ => ⟨S3300000x40, .f32⟩
  | .hbm, ⟨81, _⟩ => ⟨S3300000x40, .f32⟩
  | .hbm, ⟨82, _⟩ => ⟨S_, .f32⟩
  | .hbm, ⟨83, _⟩ => ⟨S100000x40, .f32⟩
  | .hbm, ⟨84, _⟩ => ⟨S3300000x1, .i32⟩
  | .hbm, ⟨85, _⟩ => ⟨S100000x40, .f32⟩
  | .hbm, ⟨86, _⟩ => ⟨S1x40, .f32⟩
  | .hbm, ⟨87, _⟩ => ⟨S100000x40, .f32⟩
  | .hbm, ⟨88, _⟩ => ⟨S100000x40, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x40, .f32⟩
  | .hbm, ⟨96, _⟩ => ⟨S100000x40, .f32⟩
  | .hbm, ⟨97, _⟩ => ⟨S100000x40, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x40, .f32⟩
  | .hbm, ⟨103, _⟩ => ⟨S100000x40, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x40_S100000x40_1_0_0_1_n_n_wf : DotDims.WF S100000x16 S16x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.LibHostLine.lean ====
/-
  A straight line of host operations read in stretches, and the transport of contents to a buffer's own type and back.

  What the buffers hold after a line of operations is a fold over the line; the fold over two lines run one after the
  other is the fold over the second from what the first leaves (`after_append`), so a long line can be read stretch by
  stretch (`after_take_drop`), each stretch from a valuation whose relevant buffers are already known by name.
  An operation of a module-local function carries its operands from their buffers' types to the value types and its
  result back; carried there and back again, contents are unchanged (`ofBuf_toBuf`). Rewriting with it removes the
  nested transports a composed term of such operations is full of, which otherwise make comparing two such terms
  exponentially slow in the depth of the nesting.
-/
import Idealize.ShloMosaic.Lib.StableHlo.Run

noncomputable section

namespace Cert.LibHostLine

open Idealize.ShloMosaic Idealize.ShloMosaic.StableHlo

variable {τ : Topo} {sig : RefSig} {Val : EltTy → Type}

/-- Two lines of operations run one after the other. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A line read as its first `n` operations and then the rest. -/
theorem after_take_drop (l : List (HloOp τ sig Val)) (n : Nat) (V : Valuation τ sig Val) :
    after l V = after (l.drop n) (after (l.take n) V) := by
  rw [← after_append, List.take_append_drop]

/-- Contents carried to a buffer's own type and back are the contents. -/
theorem ofBuf_toBuf {T : BufTy} (x : TRef sig T) (v : T.Contents Val) : x.ofBuf (x.toBuf v) = v := by
  obtain ⟨r, h, _, _⟩ := x
  subst h
  rfl

end Cert.LibHostLine

end
-- ==== Proof.RefValue.lean ====
/-
  The reference program's run, read stage by stage.

  The reference is one straight line of 98 host operations. It is followed in three stretches from a valuation of the
  buffers: the graph preparation (40 operations: the edge lists with the self-loops appended, the degrees, the edge
  weights), the first layer up to the second dense product (24 operations), and the second aggregation with the
  row-wise logarithm of the softmax (34 operations). What each stretch leaves in the buffers the next one reads is the
  stage function of the arguments, so the result buffer ends at the last stage of the six arguments; no operation
  writes an argument.
-/
import proofs.«118385_j64080912056900_1_alg».proof.Proof.RefRead
import proofs.«118385_j64080912056900_1_alg».proof.Proof.LibHostLine
import Idealize.ShloMosaic.Lib.StableHlo.Run

set_option maxRecDepth 16384

noncomputable section

namespace Cert.ReferenceIdeal.Whole

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The two lists joined by a concatenation are read by rewriting each earlier operation's result in turn. -/
macro "read_joined" : tactic =>
  `(tactic| repeat (first
      | rw [reshape_result] | rw [unary_result] | rw [binary_result] | rw [ternary_result] | rw [nullary_result]
      | (rw [reshape_result_ne]; rotate_left; decide) | (rw [unary_result_ne]; rotate_left; decide)
      | (rw [binary_result_ne]; rotate_left; decide) | (rw [ternary_result_ne]; rotate_left; decide)
      | (rw [nullary_result_ne]; rotate_left; decide)))

/-- The three stretches. -/
abbrev prep : List (HloOp τ sig (Elt F)) := (ops (F := F)).take 40
abbrev layer1 : List (HloOp τ sig (Elt F)) := ((ops (F := F)).drop 40).take 24
abbrev layer2 : List (HloOp τ sig (Elt F)) := ((ops (F := F)).drop 40).drop 24

theorem after_split (V : Valuation τ sig (Elt F)) :
    after (ops (F := F)) V = after layer2 (after layer1 (after prep V)) := by
  rw [← Cert.LibHostLine.after_append, ← Cert.LibHostLine.after_append, List.take_append_drop, List.take_append_drop]

variable (V : Valuation τ sig (Elt F))

/-! ## The graph preparation -/

theorem prep_rows : after prep V (Proc.devRef .tc main_v3) = val_main_v3 (F := F) (V (Proc.devRef .tc main_arg1)) := by
  simp only [prep, ops, List.take_succ_cons, List.take_zero]
  after_results_simp
  read_joined
  rfl
theorem prep_cols : after prep V (Proc.devRef .tc main_v6) = val_main_v6 (F := F) (V (Proc.devRef .tc main_arg1)) := by
  simp only [prep, ops, List.take_succ_cons, List.take_zero]
  after_results_simp
  read_joined
  rfl
theorem prep_weights : after prep V (Proc.devRef .tc main_v29) = val_main_v29 (F := F) (V (Proc.devRef .tc main_arg1)) := by
  simp only [prep, ops, List.take_succ_cons, List.take_zero]
  after_results_simp
  read_joined
  rfl
theorem prep_arg0 : after prep V (Proc.devRef .tc main_arg0) = V (Proc.devRef .tc main_arg0) := by
  simp only [prep, ops, List.take_succ_cons, List.take_zero]; after_results_simp
theorem prep_arg2 : after prep V (Proc.devRef .tc main_arg2) = V (Proc.devRef .tc main_arg2) := by
  simp only [prep, ops, List.take_succ_cons, List.take_zero]; after_results_simp
theorem prep_arg3 : after prep V (Proc.devRef .tc main_arg3) = V (Proc.devRef .tc main_arg3) := by
  simp only [prep, ops, List.take_succ_cons, List.take_zero]; after_results_simp
theorem prep_arg4 : after prep V (Proc.devRef .tc main_arg4) = V (Proc.devRef .tc main_arg4) := by
  simp only [prep, ops, List.take_succ_cons, List.take_zero]; after_results_simp
theorem prep_arg5 : after prep V (Proc.devRef .tc main_arg5) = V (Proc.devRef .tc main_arg5) := by
  simp only [prep, ops, List.take_succ_cons, List.take_zero]; after_results_simp

/-! ## The first layer and the second dense product -/

theorem layer1_dense (x1 : (⟨S2x3200000, .i32⟩ : BufTy).Contents (Elt F))
    (h3 : V (Proc.devRef .tc main_v3) = val_main_v3 (F := F) x1)
    (h6 : V (Proc.devRef .tc main_v6) = val_main_v6 (F := F) x1)
    (h29 : V (Proc.devRef .tc main_v29) = val_main_v29 (F := F) x1) :
    after layer1 V (Proc.devRef .tc main_v48)
      = val_main_v48 (F := F) (V (Proc.devRef .tc main_arg0)) x1 (V (Proc.devRef .tc main_arg2)) (V (Proc.devRef .tc main_arg3)) (V (Proc.devRef .tc main_arg4)) := by
  simp only [layer1, ops, List.take_succ_cons, List.take_zero, List.drop_succ_cons, List.drop_zero]
  after_results_simp
  rw [h3, h6, h29]
  simp only [Cert.LibHostLine.ofBuf_toBuf]
  rfl
theorem layer1_rows : after layer1 V (Proc.devRef .tc main_v3) = V (Proc.devRef .tc main_v3) := by
  simp only [layer1, ops, List.take_succ_cons, List.take_zero, List.drop_succ_cons, List.drop_zero]; after_results_simp
theorem layer1_cols : after layer1 V (Proc.devRef .tc main_v6) = V (Proc.devRef .tc main_v6) := by
  simp only [layer1, ops, List.take_succ_cons, List.take_zero, List.drop_succ_cons, List.drop_zero]; after_results_simp
theorem layer1_weights : after layer1 V (Proc.devRef .tc main_v29) = V (Proc.devRef .tc main_v29) := by
  simp only [layer1, ops, List.take_succ_cons, List.take_zero, List.drop_succ_cons, List.drop_zero]; after_results_simp
theorem layer1_arg5 : after layer1 V (Proc.devRef .tc main_arg5) = V (Proc.devRef .tc main_arg5) := by
  simp only [layer1, ops, List.take_succ_cons, List.take_zero, List.drop_succ_cons, List.drop_zero]; after_results_simp

/-! ## The second aggregation and the logarithm of the softmax -/

theorem layer2_result (x0 : (⟨S100000x512, .f32⟩ : BufTy).Contents (Elt F)) (x1 : (⟨S2x3200000, .i32⟩ : BufTy).Contents (Elt F))
    (x2 : (⟨S512x16, .f32⟩ : BufTy).Contents (Elt F)) (x3 : (⟨S16, .f32⟩ : BufTy).Contents (Elt F))
    (x4 : (⟨S16x40, .f32⟩ : BufTy).Contents (Elt F))
    (h3 : V (Proc.devRef .tc main_v3) = val_main_v3 (F := F) x1)
    (h6 : V (Proc.devRef .tc main_v6) = val_main_v6 (F := F) x1)
    (h29 : V (Proc.devRef .tc main_v29) = val_main_v29 (F := F) x1)
    (h48 : V (Proc.devRef .tc main_v48) = val_main_v48 (F := F) x0 x1 x2 x3 x4) :
    after layer2 V (Proc.devRef .tc main_v65)
      = val_main_v65 (F := F) x0 x1 x2 x3 x4 (V (Proc.devRef .tc main_arg5)) := by
  simp only [layer2, ops, List.drop_succ_cons, List.drop_zero]
  after_results_simp
  rw [h3, h6, h29, h48]
  simp only [Cert.LibHostLine.ofBuf_toBuf]
  rfl

/-! ## The whole line -/

/-- The result buffer after the 98 operations is the last stage of the six arguments. -/
theorem result : after (ops (F := F)) V (Proc.devRef .tc main_v65)
    = val_main_v65 (F := F) (V (Proc.devRef .tc main_arg0)) (V (Proc.devRef .tc main_arg1)) (V (Proc.devRef .tc main_arg2))
        (V (Proc.devRef .tc main_arg3)) (V (Proc.devRef .tc main_arg4)) (V (Proc.devRef .tc main_arg5)) := by
  rw [after_split]
  have e := layer2_result (after layer1 (after prep V)) (after prep V (Proc.devRef .tc main_arg0)) (V (Proc.devRef .tc main_arg1))
    (after prep V (Proc.devRef .tc main_arg2)) (after prep V (Proc.devRef .tc main_arg3)) (after prep V (Proc.devRef .tc main_arg4))
    ((layer1_rows (after prep V)).trans (prep_rows V)) ((layer1_cols (after prep V)).trans (prep_cols V))
    ((layer1_weights (after prep V)).trans (prep_weights V))
    (layer1_dense (after prep V) (V (Proc.devRef .tc main_arg1)) (prep_rows V) (prep_cols V) (prep_weights V))
  rw [layer1_arg5, prep_arg0, prep_arg2, prep_arg3, prep_arg4, prep_arg5] at e
  exact e

set_option maxRecDepth 65536 in
set_option maxHeartbeats 40000000 in
/-- Every weakly fair execution of the reference terminates with the result buffer at the last stage of the arguments
    as launched, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v65)
        = val_main_v65 (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v65).trans (result (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.Whole

end
-- ==== Proof.KernelRun.lean ====
/-
  The idealized kernel program's run with its RESULT named: every weakly fair execution of @main terminates, nothing
  faulting, with the last region's output array at the contents the chain of boundary valuations gives it, and the six
  argument arrays as launched. The boundary valuations are a fold through @main: a stretch of host operations applies
  them in order, a region overwrites its output array with the blocks its grid points write back and leaves every other
  buffer alone. The final state holds, at every unscoped buffer, the last boundary's contents; the result buffer is one
  of them.
-/
import proofs.«118385_j64080912056900_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Result

end
-- ==== Proof.LibHostKeepdims.lean ====
/-
  Keepdims layouts of a host program, and row maxima, read at an index given by coordinates.

  `x - x.max(axis=1, keepdims=True)` over a matrix `[a, b]` is, in a host program, a reduction `[a, b] → [a]`, a
  `broadcast_in_dim` `[a] → [a, 1]` (the kept axis) and another `[a, 1] → [a, b]` (the subtraction's broadcast); a
  vector of per-column values `[b]` meets the matrix through `[b] → [1, b] → [a, b]`. Read at `(p, c)` the first
  composite is the operand at row `p`, the second the operand at column `c`. The four steps are the first four lemmas;
  a rank-0 operand broadcast to any shape is its one element everywhere. Then the two host reductions along the rows
  (the sum, at the ideal values, and the maximum, a fold of `max` in any order), the kernel's lane maximum along the
  rows in the same words, and the kernel's cast `[a, 1] → [a]` that drops a kept axis again.
  The `dims` of a `broadcast_in_dim` are a variable; the lemmas ask only which result axis each operand axis is sent to.
-/
import Idealize.ShloMosaic.Lib.ValueLayout
import Idealize.ShloMosaic.PureOps.Ideal.Laws

noncomputable section

open scoped BigOperators

namespace Idealize.ShloMosaic.ValueIdx

open Idealize.ShloMosaic

section Layout
variable {α : Type}

/-- A vector `[a]` broadcast to the column `[a, 1]` reads, at `(p, u)`, the vector at `p`. -/
theorem broadcastInDim_a_a1_apply {a : ℕ} (dims : Fin 1 → Fin 2)
    (h : (⟨1, ![a]⟩ : Shape).BroadcastsInDim ⟨2, ![a, 1]⟩ dims) (hd : dims 0 = 0)
    (v : (⟨1, ![a]⟩ : Shape).Idx → α) (p : Fin a) (u : Fin 1) :
    broadcastInDim ⟨2, ![a, 1]⟩ dims h v (ix2 p u) = v (ix1 p) := by
  refine broadcastInDim_apply dims h v (ix2 p u) (ix1 p) fun ax => ?_
  match ax with
  | ⟨0, _⟩ =>
    show p.val = if a = 1 then 0 else (ix2 p u (dims 0)).val
    rw [hd]
    show p.val = if a = 1 then 0 else p.val
    split
    · have := p.isLt; omega
    · rfl

/-- A column `[a, 1]` broadcast to `[a, b]` reads, at `(p, c)`, the column at row `p`. -/
theorem broadcastInDim_a1_ab_apply {a b : ℕ} (dims : Fin 2 → Fin 2)
    (h : (⟨2, ![a, 1]⟩ : Shape).BroadcastsInDim ⟨2, ![a, b]⟩ dims) (hd : dims 0 = 0)
    (v : (⟨2, ![a, 1]⟩ : Shape).Idx → α) (p : Fin a) (c : Fin b) :
    broadcastInDim ⟨2, ![a, b]⟩ dims h v (ix2 p c) = v (ix2 p (0 : Fin 1)) := by
  refine broadcastInDim_apply dims h v (ix2 p c) (ix2 p (0 : Fin 1)) fun ax => ?_
  match ax with
  | ⟨0, _⟩ =>
    show p.val = if a = 1 then 0 else (ix2 p c (dims 0)).val
    rw [hd]
    show p.val = if a = 1 then 0 else p.val
    split
    · have := p.isLt; omega
    · rfl
  | ⟨1, _⟩ => rfl

/-- A vector `[b]` broadcast to the row `[1, b]` reads, at `(u, c)`, the vector at `c`. -/
theorem broadcastInDim_b_1b_apply {b : ℕ} (dims : Fin 1 → Fin 2)
    (h : (⟨1, ![b]⟩ : Shape).BroadcastsInDim ⟨2, ![1, b]⟩ dims) (hd : dims 0 = 1)
    (v : (⟨1, ![b]⟩ : Shape).Idx → α) (u : Fin 1) (c : Fin b) :
    broadcastInDim ⟨2, ![1, b]⟩ dims h v (ix2 u c) = v (ix1 c) := by
  refine broadcastInDim_apply dims h v (ix2 u c) (ix1 c) fun ax => ?_
  match ax with
  | ⟨0, _⟩ =>
    show c.val = if b = 1 then 0 else (ix2 u c (dims 0)).val
    rw [hd]
    show c.val = if b = 1 then 0 else c.val
    split
    · have := c.isLt; omega
    · rfl

/-- A row `[1, b]` broadcast to `[a, b]` reads, at `(p, c)`, the row at column `c`. -/
theorem broadcastInDim_1b_ab_apply {a b : ℕ} (dims : Fin 2 → Fin 2)
    (h : (⟨2, ![1, b]⟩ : Shape).BroadcastsInDim ⟨2, ![a, b]⟩ dims) (hd : dims 1 = 1)
    (v : (⟨2, ![1, b]⟩ : Shape).Idx → α) (p : Fin a) (c : Fin b) :
    broadcastInDim ⟨2, ![a, b]⟩ dims h v (ix2 p c) = v (ix2 (0 : Fin 1) c) := by
  refine broadcastInDim_apply dims h v (ix2 p c) (ix2 (0 : Fin 1) c) fun ax => ?_
  match ax with
  | ⟨0, _⟩ => rfl
  | ⟨1, _⟩ =>
    show c.val = if b = 1 then 0 else (ix2 p c (dims 1)).val
    rw [hd]
    show c.val = if b = 1 then 0 else c.val
    split
    · have := c.isLt; omega
    · rfl

/-- A rank-0 operand broadcast to any shape reads its one element everywhere. -/
theorem broadcastInDim_scalar_apply {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 fun ax => ax.elim0

/-- A column `[a, 1]` cast to the vector `[a]` reads, at `i`, the column at row `i`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Layout

/-- The host's sum of an `[a, b]` matrix along its rows, at the ideal values and read at row `r`: the initial value
    plus the sum over the row. -/
theorem hostReduceAdd_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ k : Fin b, x (ix2 r k) := by
  simp only [Host.reduceAdd, Ideal.hostReduceAdd_def]
  rw [Ideal.hostReduceAdd_single h' h]
  refine congrArg (_ + ·) (Finset.sum_congr rfl fun k _ => congrArg x (funext fun ax => Fin.ext ?_))
  match ax with
  | ⟨0, _⟩ => rfl
  | ⟨1, _⟩ => rfl

/-- The host's maximum of an `[a, b]` matrix along its rows, read at row `r`: the fold of `max`, from the initial
    value, over the row, in any order. -/
theorem hostReduce_max_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun k => x (ix2 r k)) := by
  refine (Host.reduce_eq_fold_single (FloatOps.maximumf (F := Ideal) (φ := φ)) x init h' h hu (ix1 r)).trans ?_
  refine congrArg (Finset.fold _ _ · _) (funext fun k => congrArg x (funext fun ax => Fin.ext ?_))
  match ax with
  | ⟨0, _⟩ => rfl
  | ⟨1, _⟩ => rfl

/-- A kernel's lane maximum of an `[a, b]` matrix along its rows, at the ideal values and read at row `r`: the fold of
    `max`, from the accumulator's value, over the row. -/
theorem multiReduction_maximumf_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (Finset.fold _ _ · _) (funext fun k => congrArg src (funext fun ax => Fin.ext ?_))
  match ax with
  | ⟨0, _⟩ => rfl
  | ⟨1, _⟩ => rfl

end Idealize.ShloMosaic.ValueIdx

end
-- ==== Proof.LibKeepdims.lean ====
/-
  Row sums kept as a column, read at an index given by coordinates.

  `jnp.sum(x, axis=1, keepdims=True)` of a matrix `[a, b]` is, in a kernel, a lane reduction `[a, b] → [a]`
  followed by a cast `[a] → [a, 1]`; adding such a column to an `[a, c]` matrix broadcasts it `[a, 1] → [a, c]`.
  Read at `(p, q)` the composite is the sum over the row `p`, whatever `q`: the three lemmas below are the three steps,
  each with its indices written by coordinates, and `rowSum_bcast_apply` / `rowSum_bcastRow_apply` are the two composites
  a pairwise-distance kernel uses (the row norms of the left operand down the columns, those of the right operand
  along the rows).
-/
import Idealize.ShloMosaic.Lib.ValueLayout
import Idealize.ShloMosaic.PureOps.Ideal.Laws

noncomputable section

open scoped BigOperators

namespace Idealize.ShloMosaic.ValueIdx

open Idealize.ShloMosaic

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A lane reduction by addition of an `[a, b]` matrix along its rows, at the ideal values and read at row `r`: the sum
    over the row. The accumulator's word is the neutral one, so it contributes nothing. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- Row sums kept as a column and broadcast along the rows: at `(p, c)`, the sum over row `p`. -/
theorem rowSum_bcast_apply {a b n : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, n]⟩)
    (p : Fin a) (c : Fin n) :
    broadcastTo ⟨2, ![a, n]⟩ (shapeCast ⟨2, ![a, 1]⟩ (multiReduction .add [1] ⟨1, ![a]⟩ src acc h hφ hacc) hc) hb (ix2 p c)
      = ∑ k : Fin b, src (ix2 p k) :=
  (broadcastTo_a1_ab_apply _ hb p c).trans
    ((shapeCast_a_a1_apply _ hc p 0).trans (multiReduction_add_rows_apply src acc h hφ hacc p))

/-- Row sums laid out as one row `[1, a]` and broadcast down the columns: at `(p, c)`, the sum over row `c` of the
    source. -/
theorem rowSum_bcastRow_apply {a b n : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![1, a]⟩) (hb : (⟨2, ![1, a]⟩ : Shape).Broadcasts ⟨2, ![n, a]⟩)
    (p : Fin n) (c : Fin a) :
    broadcastTo ⟨2, ![n, a]⟩ (shapeCast ⟨2, ![1, a]⟩ (multiReduction .add [1] ⟨1, ![a]⟩ src acc h hφ hacc) hc) hb (ix2 p c)
      = ∑ k : Fin b, src (ix2 c k) :=
  (broadcastTo_1b_ab_apply _ hb p c).trans
    ((shapeCast_a_1a_apply _ hc 0 c).trans (multiReduction_add_rows_apply src acc h hφ hacc c))

end Idealize.ShloMosaic.ValueIdx

end
-- ==== Proof.LibRowStages.lean ====
/-
  The four dense stages of a two-layer graph convolution, each as ONE function of whole arrays over the extended reals,
  and the two row-wise bodies read at a coordinate pair.

  * `dense a w` is the matrix product: entry (p, q) is the sum over t of a(p, t) · w(t, q).
  * `biasRelu a b` adds the row vector b to every row of a and clamps below at zero.
  * `biasLogSoftmax a b` adds the row vector b to every row of a and takes the logarithm of the softmax along each row,
    with the row maximum subtracted first: with z = a(p, ·) + b and M the maximum of z,
    entry (p, q) is (z q − M) − log Σ_t exp (z t − M).
  The maximum is a fold of `max` from the value of the word 0xFF800000 (the least extended real), kept as a word so that
  both programs meet it unevaluated.
-/
import Idealize.ShloMosaic.Lib.ValueIdx
import Idealize.ShloMosaic.Lib.ValueLayout
import Idealize.ShloMosaic.Lib.Pipeline.Value
import Idealize.ShloMosaic.PureOps.Ideal.Laws
import proofs.«118385_j64080912056900_1_alg».proof.Proof.LibHostKeepdims
import proofs.«118385_j64080912056900_1_alg».proof.Proof.LibKeepdims

noncomputable section

open scoped BigOperators

namespace Cert.Gcn

open Idealize.ShloMosaic Idealize.ShloMosaic.ValueIdx

/-- The matrix product of an [n, k] by a [k, f] array. -/
def dense {n k f : ℕ} (a : (⟨2, ![n, k]⟩ : Shape).Idx → EReal) (w : (⟨2, ![k, f]⟩ : Shape).Idx → EReal) :
    (⟨2, ![n, f]⟩ : Shape).Idx → EReal :=
  fun i => ∑ t : Fin k, a (ix2 (i 0) t) * w (ix2 t (i 1))

theorem dense_apply {n k f : ℕ} (a : (⟨2, ![n, k]⟩ : Shape).Idx → EReal) (w : (⟨2, ![k, f]⟩ : Shape).Idx → EReal)
    (p : Fin n) (q : Fin f) : dense a w (ix2 p q) = ∑ t : Fin k, a (ix2 p t) * w (ix2 t q) := rfl

/-- The word of zero and the word of the least extended real, as values. -/
abbrev zeroVal : EReal := Ideal.ofBits .f32 0x00000000#32
abbrev leastVal : EReal := Ideal.ofBits .f32 0xFF800000#32

/-- A row vector added to every row, then clamped below at zero. -/
def biasRelu {n f : ℕ} (a : (⟨2, ![n, f]⟩ : Shape).Idx → EReal) (b : (⟨2, ![1, f]⟩ : Shape).Idx → EReal) :
    (⟨2, ![n, f]⟩ : Shape).Idx → EReal :=
  fun i => max (a i + b (ix2 (0 : Fin 1) (i 1))) zeroVal

theorem biasRelu_apply {n f : ℕ} (a : (⟨2, ![n, f]⟩ : Shape).Idx → EReal) (b : (⟨2, ![1, f]⟩ : Shape).Idx → EReal)
    (p : Fin n) (q : Fin f) : biasRelu a b (ix2 p q) = max (a (ix2 p q) + b (ix2 (0 : Fin 1) q)) zeroVal := rfl

/-- The maximum of a row, folded from the least value. -/
def rowMax {f : ℕ} (z : Fin f → EReal) : EReal := (Finset.univ : Finset (Fin f)).fold max leastVal z

/-- The logarithm of the softmax of one row at position q, the row maximum subtracted first. -/
def lsmRow {f : ℕ} (z : Fin f → EReal) (q : Fin f) : EReal :=
  (z q - rowMax z) - Ideal.log (∑ t : Fin f, Ideal.exp (z t - rowMax z))

/-- A row vector added to every row, then the row-wise logarithm of the softmax. -/
def biasLogSoftmax {n f : ℕ} (a : (⟨2, ![n, f]⟩ : Shape).Idx → EReal) (b : (⟨2, ![1, f]⟩ : Shape).Idx → EReal) :
    (⟨2, ![n, f]⟩ : Shape).Idx → EReal :=
  fun i => lsmRow (fun t => a (ix2 (i 0) t) + b (ix2 (0 : Fin 1) t)) (i 1)

theorem biasLogSoftmax_apply {n f : ℕ} (a : (⟨2, ![n, f]⟩ : Shape).Idx → EReal) (b : (⟨2, ![1, f]⟩ : Shape).Idx → EReal)
    (p : Fin n) (q : Fin f) :
    biasLogSoftmax a b (ix2 p q) = lsmRow (fun t => a (ix2 p t) + b (ix2 (0 : Fin 1) t)) q := rfl

/-! ## The two row-wise kernel bodies at a coordinate pair -/

/-- A block plus a broadcast row, clamped at zero, read at (p, q). -/
theorem biasRelu_body {a b : ℕ} (x : FVec Ideal ⟨2, ![a, b]⟩ .f32) (v : FVec Ideal ⟨2, ![1, b]⟩ .f32)
    (h1 : (⟨2, ![a, b]⟩ : Shape).ShapeCasts ⟨2, ![a, b]⟩) (h2 : (⟨2, ![1, b]⟩ : Shape).ShapeCasts ⟨2, ![1, b]⟩)
    (hb : (⟨2, ![1, b]⟩ : Shape).Broadcasts ⟨2, ![a, b]⟩) (p : Fin a) (q : Fin b) :
    maximumf (addf (shapeCast ⟨2, ![a, b]⟩ x h1) (broadcastTo ⟨2, ![a, b]⟩ (shapeCast ⟨2, ![1, b]⟩ v h2) hb))
        (broadcast ⟨2, ![a, b]⟩ (Scalar.ofBits (F := Ideal) .f32 0x00000000#32)) (ix2 p q)
      = max (x (ix2 p q) + v (ix2 (0 : Fin 1) q)) zeroVal := by
  rw [maximumf_apply, addf_apply, shapeCast_self, shapeCast_self, broadcastTo_1b_ab_apply]
  rfl

/-- The block's rows plus a broadcast row, at (p, t). -/
theorem addRow_apply {a b : ℕ} (x : FVec Ideal ⟨2, ![a, b]⟩ .f32) (v : FVec Ideal ⟨2, ![1, b]⟩ .f32)
    (h1 : (⟨2, ![a, b]⟩ : Shape).ShapeCasts ⟨2, ![a, b]⟩) (h2 : (⟨2, ![1, b]⟩ : Shape).ShapeCasts ⟨2, ![1, b]⟩)
    (hb : (⟨2, ![1, b]⟩ : Shape).Broadcasts ⟨2, ![a, b]⟩) (p : Fin a) (t : Fin b) :
    addf (shapeCast ⟨2, ![a, b]⟩ x h1) (broadcastTo ⟨2, ![a, b]⟩ (shapeCast ⟨2, ![1, b]⟩ v h2) hb) (ix2 p t)
      = x (ix2 p t) + v (ix2 (0 : Fin 1) t) := by
  rw [addf_apply, shapeCast_self, shapeCast_self, broadcastTo_1b_ab_apply]

/-- The row-wise logarithm of the softmax as a kernel computes it on a block z: lane maximum, kept as a column and
    broadcast back, subtracted; exponentials summed along the lanes, kept as a column, its logarithm broadcast back and
    subtracted. Read at (p, q) it is `lsmRow` of row p. -/
theorem logSoftmax_body {a b : ℕ} (z : FVec Ideal ⟨2, ![a, b]⟩ .f32)
    (hr : (⟨2, ![a, b]⟩ : Shape).Reduces [1] ⟨1, ![a]⟩) (hφ : FKind.Formats .f32)
    (hm : (0xFF800000#32 : BitVec FTy.f32.bits) = FKind.maximumf.neutral .f32 hφ)
    (hs : (0x00000000#32 : BitVec FTy.f32.bits) = FKind.add.neutral .f32 hφ)
    (hc : (⟨1, ![a]⟩ : Shape).ShapeCasts ⟨2, ![a, 1]⟩) (hb2 : (⟨2, ![a, 1]⟩ : Shape).Broadcasts ⟨2, ![a, b]⟩)
    (p : Fin a) (q : Fin b) :
    subf (subf z (broadcastTo ⟨2, ![a, b]⟩ (shapeCast ⟨2, ![a, 1]⟩ (multiReduction .maximumf [1] ⟨1, ![a]⟩ z 0xFF800000#32 hr hφ hm) hc) hb2))
        (broadcastTo ⟨2, ![a, b]⟩ (log (shapeCast ⟨2, ![a, 1]⟩
          (multiReduction .add [1] ⟨1, ![a]⟩
            (exp (subf z (broadcastTo ⟨2, ![a, b]⟩ (shapeCast ⟨2, ![a, 1]⟩ (multiReduction .maximumf [1] ⟨1, ![a]⟩ z 0xFF800000#32 hr hφ hm) hc) hb2)))
            0x00000000#32 hr hφ hs) hc)) hb2) (ix2 p q)
      = lsmRow (fun t => z (ix2 p t)) q := by
  have eM : ∀ t : Fin b, broadcastTo ⟨2, ![a, b]⟩ (shapeCast ⟨2, ![a, 1]⟩ (multiReduction .maximumf [1] ⟨1, ![a]⟩ z 0xFF800000#32 hr hφ hm) hc) hb2 (ix2 p t)
      = rowMax (fun t => z (ix2 p t)) := fun t =>
    (broadcastTo_a1_ab_apply _ hb2 p t).trans
      ((shapeCast_a_a1_apply _ hc p 0).trans (multiReduction_maximumf_rows_apply z _ hr hφ hm p))
  rw [subf_apply, subf_apply, eM, broadcastTo_a1_ab_apply]
  unfold lsmRow
  refine congrArg (fun y => (z (ix2 p q) - rowMax (fun t => z (ix2 p t))) - y) ?_
  show Ideal.log (shapeCast ⟨2, ![a, 1]⟩ _ hc (ix2 p (0 : Fin 1))) = _
  rw [shapeCast_a_a1_apply _ hc p 0, multiReduction_add_rows_apply _ _ hr hφ hs p]
  refine congrArg Ideal.log (Finset.sum_congr rfl fun t _ => ?_)
  show Ideal.exp (subf z _ (ix2 p t)) = _
  rw [subf_apply, eM]

/-! ## The same row-wise logarithm of the softmax as a host program computes it -/

/-- The least value is below any row maximum folded from it. -/
theorem max_least_rowMax {f : ℕ} (z : Fin f → EReal) : max leastVal (rowMax z) = rowMax z :=
  max_eq_right ((Finset.le_fold_max _).mpr (Or.inl le_rfl))

/-- On the host: the row maximum (reduced from the least value, and joined once more with it), kept as a column and
    broadcast back, subtracted; the exponentials summed along the rows from zero, kept as a column, the logarithm
    broadcast back and subtracted. Read at (p, q) it is `lsmRow` of row p. -/
theorem logSoftmax_host {a b : ℕ} (z : FVec Ideal ⟨2, ![a, b]⟩ .f32)
    (hR : (⟨2, ![a, b]⟩ : Shape).ReducesTo [1] ⟨1, ![a]⟩) (hr : (⟨2, ![a, b]⟩ : Shape).Reduces [1] ⟨1, ![a]⟩)
    (hu : 0 < (⟨0, ![]⟩ : Shape).numel)
    (d0 : Fin 0 → Fin 1) (h0 : (⟨0, ![]⟩ : Shape).BroadcastsInDim ⟨1, ![a]⟩ d0)
    (d1 : Fin 1 → Fin 2) (h1 : (⟨1, ![a]⟩ : Shape).BroadcastsInDim ⟨2, ![a, 1]⟩ d1) (hd1 : d1 0 = 0)
    (d2 : Fin 2 → Fin 2) (h2 : (⟨2, ![a, 1]⟩ : Shape).BroadcastsInDim ⟨2, ![a, b]⟩ d2) (hd2 : d2 0 = 0)
    (p : Fin a) (q : Fin b) :
    subf (subf z (broadcastInDim ⟨2, ![a, b]⟩ d2 h2 (broadcastInDim ⟨2, ![a, 1]⟩ d1 h1
            (maximumf (broadcastInDim ⟨1, ![a]⟩ d0 h0 (constant (F := Ideal) ⟨0, ![]⟩ .f32 0xFF800000#32))
              (Host.reduce FloatOps.maximumf z (constant (F := Ideal) ⟨0, ![]⟩ .f32 0xFF800000#32) hR hu)))))
        (broadcastInDim ⟨2, ![a, b]⟩ d2 h2 (Host.log (broadcastInDim ⟨2, ![a, 1]⟩ d1 h1
          (Host.reduceAdd (Host.exp (subf z (broadcastInDim ⟨2, ![a, b]⟩ d2 h2 (broadcastInDim ⟨2, ![a, 1]⟩ d1 h1
              (maximumf (broadcastInDim ⟨1, ![a]⟩ d0 h0 (constant (F := Ideal) ⟨0, ![]⟩ .f32 0xFF800000#32))
                (Host.reduce FloatOps.maximumf z (constant (F := Ideal) ⟨0, ![]⟩ .f32 0xFF800000#32) hR hu))))))
            (constant (F := Ideal) ⟨0, ![]⟩ .f32 0x00000000#32) hR hu)))) (ix2 p q)
      = lsmRow (fun t => z (ix2 p t)) q := by
  have eM : ∀ t : Fin b, broadcastInDim ⟨2, ![a, b]⟩ d2 h2 (broadcastInDim ⟨2, ![a, 1]⟩ d1 h1
            (maximumf (broadcastInDim ⟨1, ![a]⟩ d0 h0 (constant (F := Ideal) ⟨0, ![]⟩ .f32 0xFF800000#32))
              (Host.reduce FloatOps.maximumf z (constant (F := Ideal) ⟨0, ![]⟩ .f32 0xFF800000#32) hR hu))) (ix2 p t)
      = rowMax (fun t => z (ix2 p t)) := fun t => by
    rw [broadcastInDim_a1_ab_apply d2 h2 hd2, broadcastInDim_a_a1_apply d1 h1 hd1, maximumf_apply,
      broadcastInDim_scalar_apply, hostReduce_max_rows_apply z _ hR hr hu p]
    exact max_least_rowMax _
  rw [subf_apply, subf_apply, eM, broadcastInDim_a1_ab_apply d2 h2 hd2]
  unfold lsmRow
  refine congrArg (fun y => (z (ix2 p q) - rowMax (fun t => z (ix2 p t))) - y) ?_
  show Ideal.log (broadcastInDim (s := ⟨1, ![a]⟩) ⟨2, ![a, 1]⟩ d1 h1 _ (ix2 p (0 : Fin 1))) = _
  rw [broadcastInDim_a_a1_apply d1 h1 hd1, hostReduceAdd_rows_apply _ _ hR hr hu p]
  refine congrArg Ideal.log ?_
  show Ideal.ofBits .f32 0x00000000#32 + _ = _
  rw [Ideal.ofBits_zero_f32, zero_add]
  refine Finset.sum_congr rfl fun t _ => ?_
  show Ideal.exp (subf z _ (ix2 p t)) = _
  rw [subf_apply, eM]

end Cert.Gcn

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.Region0.lean ====
/-
  The first region: the dense product x · W1, 5000 rows of x at a grid point.

  Grid point t stages rows 5000·t … 5000·t + 4999 of x (all 512 columns) and the whole of W1, multiplies them into a zero
  accumulator and writes the 5000 × 16 result back as rows 5000·t … of the output. Entry (p, q) of that block is the sum
  over k of x(5000·t + p, k) · W1(k, q), which is entry (5000·t + p, q) of the whole product; the twenty blocks tile the
  100000 rows, so after the region the output array is the whole product of the two arrays the region found.
-/
import proofs.«118385_j64080912056900_1_alg».proof.Proof.Gen.KernelIdeal.Frame
import proofs.«118385_j64080912056900_1_alg».proof.Proof.LibRowStages
import proofs.«118385_j64080912056900_1_alg».proof.Proof.LibMatmulNN
import Idealize.ShloMosaic.Lib.Pipeline.Value
import Idealize.ShloMosaic.Lib.ValueIdx

set_option maxRecDepth 16384

noncomputable section

open scoped BigOperators

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's product at (p, q): the sum over the 512 shared positions. -/
theorem body_apply (x0 : Vec Ideal S5000x512 .f32) (x1 : Vec Ideal S512x16 .f32) (p : Fin 5000) (q : Fin 16) :
    k0_pay1 x0 x1 (ix2 p q) = ∑ k : Fin 512, x0 (ix2 p k) * x1 (ix2 k q) := by
  unfold k0_pay1
  refine (Cert.LibMatmulNN.matmul_nn_apply dot_S5000x512_S512x16_S5000x16_1_0_0_1_n_n rfl rfl rfl rfl rfl rfl none _ _ p q).trans ?_
  rfl

/-- Where the three windows' blocks sit at grid point t: rows move with t, columns do not. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem row_lt (t : Fin cfg0.N) (p : Fin 5000) : t.val * 5000 + p.val < 100000 := by
  have hN : cfg0.N = 20 := N_0
  have := t.isLt; have := p.isLt; omega

/-- The staged block of x at point t is rows 5000·t … of the array. -/
theorem blkX_apply (c : Dev nD) (t : Fin cfg0.N) (p : Fin 5000) (k : Fin 512) :
    (iblk0 V c 0 t : Vec Ideal S5000x512 .f32) (ix2 p k)
      = (V c main_arg0 : S100000x512.Idx → EReal) (ix2 ⟨t.val * 5000 + p.val, row_lt t p⟩ k) := by
  obtain ⟨e0, e1, -⟩ := idx_facts t
  unfold iblk0
  rw [View.read_apply]
  show V c main_arg0 _ = V c main_arg0 _
  refine congrArg _ (funext fun a => Fin.ext ?_)
  match a with
  | ⟨0, _⟩ => show win0_0.index t 0 * 5000 + 1 * p.val = t.val * 5000 + p.val; rw [e0]; omega
  | ⟨1, _⟩ => show win0_0.index t 1 * 512 + 1 * k.val = k.val; rw [e1]; omega

/-- The staged block of W1 at any point is the whole array. -/
theorem blkW_apply (c : Dev nD) (t : Fin cfg0.N) (k : Fin 512) (q : Fin 16) :
    (iblk0 V c 1 t : Vec Ideal S512x16 .f32) (ix2 k q) = (V c main_arg2 : S512x16.Idx → EReal) (ix2 k q) := by
  obtain ⟨-, -, e2, e3, -⟩ := idx_facts t
  unfold iblk0
  rw [View.read_apply]
  show V c main_arg2 _ = V c main_arg2 _
  refine congrArg _ (funext fun a => Fin.ext ?_)
  match a with
  | ⟨0, _⟩ => show win0_1.index t 0 * 512 + 1 * k.val = k.val; rw [e2]; omega
  | ⟨1, _⟩ => show win0_1.index t 1 * 16 + 1 * q.val = q.val; rw [e3]; omega

/-- What point t writes back is block t of the whole product. -/
theorem flushed_eq (c : Dev nD) (t : Fin cfg0.N) :
    (dat0 V c).flushed 2 t = ((cfg0.win 2).blk t).view.read (Elt Ideal)
      (Cert.Gcn.dense (n := 100000) (k := 512) (f := 16) (V c main_arg0) (V c main_arg2)) := by
  show (cfg0.win 2).cut (grid0.coords t) ((dat0 V c).after 2 t) = _
  rw [after0_2]
  unfold out0_2
  rw [View.canon_unit_zero hz]
  simp only [View.ld_unit_zero (S := S5000x512) hz, View.ld_unit_zero (S := S512x16) hz]
  obtain ⟨-, -, -, -, e4, e5⟩ := idx_facts t
  funext j
  obtain ⟨p, q, rfl⟩ : ∃ (p : Fin 5000) (q : Fin 16), j = ix2 p q := ⟨j 0, j 1, eq_ix2 j⟩
  rw [View.read_apply]
  have hemb : ((cfg0.win 2).blk t).view.emb (ix2 p q) = (ix2 ⟨t.val * 5000 + p.val, row_lt t p⟩ q : S100000x16.Idx) :=
    funext fun a => Fin.ext (by
      match a with
      | ⟨0, _⟩ => show win0_2.index t 0 * 5000 + 1 * p.val = t.val * 5000 + p.val; rw [e4]; omega
      | ⟨1, _⟩ => show win0_2.index t 1 * 16 + 1 * q.val = q.val; rw [e5]; omega)
  show k0_pay1 (iblk0 V c 0 t) (iblk0 V c 1 t) (ix2 p q) = Cert.Gcn.dense (n := 100000) (k := 512) (f := 16) (V c main_arg0) (V c main_arg2) _
  rw [hemb, Cert.Gcn.dense_apply]
  refine (body_apply (iblk0 V c 0 t) (iblk0 V c 1 t) p q).trans (Finset.sum_congr rfl fun k _ => ?_)
  rw [blkX_apply V c t p k, blkW_apply V c t k q]

/-- An index is in point t's output block iff each coordinate is in the block's range. -/
theorem mem_blk (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v30).slice (win0_2.rect t)).set ↔ _
  rw [View.set_slice_whole, Rect.mem_set_unit]
  exact Iff.rfl

/-- Every row is in the block of the point its number divided by 5000 names. -/
theorem cover (i : S100000x16.Idx) : ∃ t : Fin cfg0.N, (cfg0.win 2).flush t = true ∧ i ∈ ((cfg0.win 2).blk t).view.set := by
  have hN : cfg0.N = 20 := N_0
  have h0 : (i 0).val < 100000 := (i 0).isLt
  have h1 : (i 1).val < 16 := (i 1).isLt
  have hlt : (i 0).val / 5000 < cfg0.N := by rw [hN]; omega
  obtain ⟨-, -, -, -, e4, e5⟩ := idx_facts ⟨(i 0).val / 5000, hlt⟩
  refine ⟨⟨(i 0).val / 5000, hlt⟩, flush0_2 _, ?_⟩
  rw [mem_blk]
  intro a
  match a with
  | ⟨0, _⟩ =>
    show win0_2.index ⟨(i 0).val / 5000, hlt⟩ 0 * 5000 ≤ (i 0).val ∧ (i 0).val < win0_2.index ⟨(i 0).val / 5000, hlt⟩ 0 * 5000 + 5000
    rw [e4]; show (i 0).val / 5000 * 5000 ≤ (i 0).val ∧ (i 0).val < (i 0).val / 5000 * 5000 + 5000; omega
  | ⟨1, _⟩ =>
    show win0_2.index ⟨(i 0).val / 5000, hlt⟩ 1 * 16 ≤ (i 1).val ∧ (i 1).val < win0_2.index ⟨(i 0).val / 5000, hlt⟩ 1 * 16 + 16
    rw [e5]; omega

/-- After the region its output array is the whole product of the arrays it found. -/
theorem final (c : Dev nD) :
    (dat0 V c).arrAt 2 cfg0.N = Cert.Gcn.dense (n := 100000) (k := 512) (f := 16) (V c main_arg0) (V c main_arg2) :=
  (dat0 V c).arrAt_eq_of_cover 2 (Cert.Gcn.dense (n := 100000) (k := 512) (f := 16) (V c main_arg0) (V c main_arg2))
    (fun t _ => flushed_eq V c t) cover

end Cert.KernelIdeal.Region0

end
-- ==== Proof.Region1.lean ====
/-
  The second region: the first bias added to the aggregated features and the result clamped at zero, 10000 rows at a
  grid point.

  Grid point t stages rows 10000·t … of the aggregated features and the bias laid out as one row, adds the row to every
  staged row, takes the maximum with zero and writes the block back to the same rows of the output. Entry (p, q) of the
  block depends on entry (10000·t + p, q) of the features and entry q of the bias only; the ten blocks tile the rows.
-/
import proofs.«118385_j64080912056900_1_alg».proof.Proof.Gen.KernelIdeal.Frame
import proofs.«118385_j64080912056900_1_alg».proof.Proof.LibRowStages
import Idealize.ShloMosaic.Lib.Pipeline.Value
import Idealize.ShloMosaic.Lib.ValueIdx

set_option maxRecDepth 16384

noncomputable section

open scoped BigOperators

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body at (p, q): the staged entry plus the bias at q, clamped at zero. -/
theorem body_apply (x0 : Vec Ideal S10000x16 .f32) (x1 : Vec Ideal S1x16 .f32) (p : Fin 10000) (q : Fin 16) :
    k1_pay1 x0 x1 (ix2 p q) = max (x0 (ix2 p q) + x1 (ix2 (0 : Fin 1) q)) Cert.Gcn.zeroVal := by
  unfold k1_pay1
  exact Cert.Gcn.biasRelu_body x0 x1 _ _ _ p q

/-- Where the three windows' blocks sit at grid point t: rows move with t, columns do not. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem row_lt (t : Fin cfg1.N) (p : Fin 10000) : t.val * 10000 + p.val < 100000 := by
  have hN : cfg1.N = 10 := N_1
  have := t.isLt; have := p.isLt; omega

/-- The staged block of the first operand at point t is rows 10000·t … of its array. -/
theorem blkX_apply (c : Dev nD) (t : Fin cfg1.N) (p : Fin 10000) (k : Fin 16) :
    (iblk1 V c 0 t : Vec Ideal S10000x16 .f32) (ix2 p k)
      = (V c main_v43 : S100000x16.Idx → EReal) (ix2 ⟨t.val * 10000 + p.val, row_lt t p⟩ k) := by
  obtain ⟨e0, e1, -⟩ := idx_facts t
  unfold iblk1
  rw [View.read_apply]
  show V c main_v43 _ = V c main_v43 _
  refine congrArg _ (funext fun a => Fin.ext ?_)
  match a with
  | ⟨0, _⟩ => show win1_0.index t 0 * 10000 + 1 * p.val = t.val * 10000 + p.val; rw [e0]; omega
  | ⟨1, _⟩ => show win1_0.index t 1 * 16 + 1 * k.val = k.val; rw [e1]; omega

/-- The staged row vector at any point is the whole one-row array. -/
theorem blkW_apply (c : Dev nD) (t : Fin cfg1.N) (u : Fin 1) (q : Fin 16) :
    (iblk1 V c 1 t : Vec Ideal S1x16 .f32) (ix2 u q) = (V c main_v44 : S1x16.Idx → EReal) (ix2 u q) := by
  obtain ⟨-, -, e2, e3, -⟩ := idx_facts t
  unfold iblk1
  rw [View.read_apply]
  show V c main_v44 _ = V c main_v44 _
  refine congrArg _ (funext fun a => Fin.ext ?_)
  match a with
  | ⟨0, _⟩ => show win1_1.index t 0 * 1 + 1 * u.val = u.val; rw [e2]; omega
  | ⟨1, _⟩ => show win1_1.index t 1 * 16 + 1 * q.val = q.val; rw [e3]; omega

/-- What point t writes back is block t of the stage's whole-array function. -/
theorem flushed_eq (c : Dev nD) (t : Fin cfg1.N) :
    (dat1 V c).flushed 2 t = ((cfg1.win 2).blk t).view.read (Elt Ideal)
      (Cert.Gcn.biasRelu (n := 100000) (f := 16) (V c main_v43) (V c main_v44)) := by
  show (cfg1.win 2).cut (grid1.coords t) ((dat1 V c).after 2 t) = _
  rw [after1_2]
  unfold out1_2
  rw [View.canon_unit_zero hz]
  simp only [View.ld_unit_zero (S := S10000x16) hz, View.ld_unit_zero (S := S1x16) hz]
  obtain ⟨-, -, -, -, e4, e5⟩ := idx_facts t
  funext j
  obtain ⟨p, q, rfl⟩ : ∃ (p : Fin 10000) (q : Fin 16), j = ix2 p q := ⟨j 0, j 1, eq_ix2 j⟩
  rw [View.read_apply]
  have hemb : ((cfg1.win 2).blk t).view.emb (ix2 p q) = (ix2 ⟨t.val * 10000 + p.val, row_lt t p⟩ q : S100000x16.Idx) :=
    funext fun a => Fin.ext (by
      match a with
      | ⟨0, _⟩ => show win1_2.index t 0 * 10000 + 1 * p.val = t.val * 10000 + p.val; rw [e4]; omega
      | ⟨1, _⟩ => show win1_2.index t 1 * 16 + 1 * q.val = q.val; rw [e5]; omega)
  show k1_pay1 (iblk1 V c 0 t) (iblk1 V c 1 t) (ix2 p q) = (Cert.Gcn.biasRelu (n := 100000) (f := 16) (V c main_v43) (V c main_v44)) _
  rw [hemb, Cert.Gcn.biasRelu_apply]
  refine (body_apply (iblk1 V c 0 t) (iblk1 V c 1 t) p q).trans ?_
  rw [blkX_apply V c t p q, blkW_apply V c t 0 q]

/-- An index is in point t's output block iff each coordinate is in the block's range. -/
theorem mem_blk (t : Fin cfg1.N) (i : S100000x16.Idx) :
    i ∈ ((cfg1.win 2).blk t).view.set ↔ ∀ a : Fin 2, win1_2.index t a * S10000x16.size a ≤ (i a).val ∧ (i a).val < win1_2.index t a * S10000x16.size a + S10000x16.size a := by
  show i ∈ ((View.whole main_v45).slice (win1_2.rect t)).set ↔ _
  rw [View.set_slice_whole, Rect.mem_set_unit]
  exact Iff.rfl

/-- Every row is in the block of the point its number divided by 10000 names. -/
theorem cover (i : S100000x16.Idx) : ∃ t : Fin cfg1.N, (cfg1.win 2).flush t = true ∧ i ∈ ((cfg1.win 2).blk t).view.set := by
  have hN : cfg1.N = 10 := N_1
  have h0 : (i 0).val < 100000 := (i 0).isLt
  have h1 : (i 1).val < 16 := (i 1).isLt
  have hlt : (i 0).val / 10000 < cfg1.N := by rw [hN]; omega
  obtain ⟨-, -, -, -, e4, e5⟩ := idx_facts ⟨(i 0).val / 10000, hlt⟩
  refine ⟨⟨(i 0).val / 10000, hlt⟩, flush1_2 _, ?_⟩
  rw [mem_blk]
  intro a
  match a with
  | ⟨0, _⟩ =>
    show win1_2.index ⟨(i 0).val / 10000, hlt⟩ 0 * 10000 ≤ (i 0).val ∧ (i 0).val < win1_2.index ⟨(i 0).val / 10000, hlt⟩ 0 * 10000 + 10000
    rw [e4]; show (i 0).val / 10000 * 10000 ≤ (i 0).val ∧ (i 0).val < (i 0).val / 10000 * 10000 + 10000; omega
  | ⟨1, _⟩ =>
    show win1_2.index ⟨(i 0).val / 10000, hlt⟩ 1 * 16 ≤ (i 1).val ∧ (i 1).val < win1_2.index ⟨(i 0).val / 10000, hlt⟩ 1 * 16 + 16
    rw [e5]; omega

/-- After the region its output array is the stage's function of the arrays it found. -/
theorem final (c : Dev nD) :
    (dat1 V c).arrAt 2 cfg1.N = Cert.Gcn.biasRelu (n := 100000) (f := 16) (V c main_v43) (V c main_v44) :=
  (dat1 V c).arrAt_eq_of_cover 2 (Cert.Gcn.biasRelu (n := 100000) (f := 16) (V c main_v43) (V c main_v44))
    (fun t _ => flushed_eq V c t) cover

end Cert.KernelIdeal.Region1

end
-- ==== Proof.Region2.lean ====
/-
  The third region: the dense product h · W2, 10000 rows of the hidden features at a grid point.

  Grid point t stages rows 10000·t … 10000·t + 9999 of h (all 16 columns) and the whole of W2, multiplies them into a
  zero accumulator and writes the 10000 × 40 result back as rows 10000·t … of the output. Entry (p, q) of that block is
  the sum over k of h(10000·t + p, k) · W2(k, q); the ten blocks tile the 100000 rows, so after the region the output
  array is the whole product of the two arrays the region found.
-/
import proofs.«118385_j64080912056900_1_alg».proof.Proof.Gen.KernelIdeal.Frame
import proofs.«118385_j64080912056900_1_alg».proof.Proof.LibRowStages
import proofs.«118385_j64080912056900_1_alg».proof.Proof.LibMatmulNN
import Idealize.ShloMosaic.Lib.Pipeline.Value
import Idealize.ShloMosaic.Lib.ValueIdx

set_option maxRecDepth 16384

noncomputable section

open scoped BigOperators

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's product at (p, q): the sum over the 16 shared positions. -/
theorem body_apply (x0 : Vec Ideal S10000x16 .f32) (x1 : Vec Ideal S16x40 .f32) (p : Fin 10000) (q : Fin 40) :
    k2_pay1 x0 x1 (ix2 p q) = ∑ k : Fin 16, x0 (ix2 p k) * x1 (ix2 k q) := by
  unfold k2_pay1
  refine (Cert.LibMatmulNN.matmul_nn_apply dot_S10000x16_S16x40_S10000x40_1_0_0_1_n_n rfl rfl rfl rfl rfl rfl none _ _ p q).trans ?_
  refine Finset.sum_congr rfl fun k _ => ?_
  rw [truncf_apply, truncf_apply, shapeCast_self]

/-- Where the three windows' blocks sit at grid point t: rows move with t, columns do not. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem row_lt (t : Fin cfg2.N) (p : Fin 10000) : t.val * 10000 + p.val < 100000 := by
  have hN : cfg2.N = 10 := N_2
  have := t.isLt; have := p.isLt; omega

/-- The staged block of the first operand at point t is rows 10000·t … of its array. -/
theorem blkX_apply (c : Dev nD) (t : Fin cfg2.N) (p : Fin 10000) (k : Fin 16) :
    (iblk2 V c 0 t : Vec Ideal S10000x16 .f32) (ix2 p k)
      = (V c main_v45 : S100000x16.Idx → EReal) (ix2 ⟨t.val * 10000 + p.val, row_lt t p⟩ k) := by
  obtain ⟨e0, e1, -⟩ := idx_facts t
  unfold iblk2
  rw [View.read_apply]
  show V c main_v45 _ = V c main_v45 _
  refine congrArg _ (funext fun a => Fin.ext ?_)
  match a with
  | ⟨0, _⟩ => show win2_0.index t 0 * 10000 + 1 * p.val = t.val * 10000 + p.val; rw [e0]; omega
  | ⟨1, _⟩ => show win2_0.index t 1 * 16 + 1 * k.val = k.val; rw [e1]; omega

/-- The staged block of the second operand at any point is the whole array. -/
theorem blkW_apply (c : Dev nD) (t : Fin cfg2.N) (k : Fin 16) (q : Fin 40) :
    (iblk2 V c 1 t : Vec Ideal S16x40 .f32) (ix2 k q) = (V c main_arg4 : S16x40.Idx → EReal) (ix2 k q) := by
  obtain ⟨-, -, e2, e3, -⟩ := idx_facts t
  unfold iblk2
  rw [View.read_apply]
  show V c main_arg4 _ = V c main_arg4 _
  refine congrArg _ (funext fun a => Fin.ext ?_)
  match a with
  | ⟨0, _⟩ => show win2_1.index t 0 * 16 + 1 * k.val = k.val; rw [e2]; omega
  | ⟨1, _⟩ => show win2_1.index t 1 * 40 + 1 * q.val = q.val; rw [e3]; omega

/-- What point t writes back is block t of the stage's whole-array function. -/
theorem flushed_eq (c : Dev nD) (t : Fin cfg2.N) :
    (dat2 V c).flushed 2 t = ((cfg2.win 2).blk t).view.read (Elt Ideal)
      (Cert.Gcn.dense (n := 100000) (k := 16) (f := 40) (V c main_v45) (V c main_arg4)) := by
  show (cfg2.win 2).cut (grid2.coords t) ((dat2 V c).after 2 t) = _
  rw [after2_2]
  unfold out2_2
  rw [View.canon_unit_zero hz]
  simp only [View.ld_unit_zero (S := S10000x16) hz, View.ld_unit_zero (S := S16x40) hz]
  obtain ⟨-, -, -, -, e4, e5⟩ := idx_facts t
  funext j
  obtain ⟨p, q, rfl⟩ : ∃ (p : Fin 10000) (q : Fin 40), j = ix2 p q := ⟨j 0, j 1, eq_ix2 j⟩
  rw [View.read_apply]
  have hemb : ((cfg2.win 2).blk t).view.emb (ix2 p q) = (ix2 ⟨t.val * 10000 + p.val, row_lt t p⟩ q : S100000x40.Idx) :=
    funext fun a => Fin.ext (by
      match a with
      | ⟨0, _⟩ => show win2_2.index t 0 * 10000 + 1 * p.val = t.val * 10000 + p.val; rw [e4]; omega
      | ⟨1, _⟩ => show win2_2.index t 1 * 40 + 1 * q.val = q.val; rw [e5]; omega)
  show k2_pay1 (iblk2 V c 0 t) (iblk2 V c 1 t) (ix2 p q) = (Cert.Gcn.dense (n := 100000) (k := 16) (f := 40) (V c main_v45) (V c main_arg4)) _
  rw [hemb, Cert.Gcn.dense_apply]
  refine (body_apply (iblk2 V c 0 t) (iblk2 V c 1 t) p q).trans (Finset.sum_congr rfl fun k _ => ?_)
  rw [blkX_apply V c t p k, blkW_apply V c t k q]

/-- An index is in point t's output block iff each coordinate is in the block's range. -/
theorem mem_blk (t : Fin cfg2.N) (i : S100000x40.Idx) :
    i ∈ ((cfg2.win 2).blk t).view.set ↔ ∀ a : Fin 2, win2_2.index t a * S10000x40.size a ≤ (i a).val ∧ (i a).val < win2_2.index t a * S10000x40.size a + S10000x40.size a := by
  show i ∈ ((View.whole main_v46).slice (win2_2.rect t)).set ↔ _
  rw [View.set_slice_whole, Rect.mem_set_unit]
  exact Iff.rfl

/-- Every row is in the block of the point its number divided by 10000 names. -/
theorem cover (i : S100000x40.Idx) : ∃ t : Fin cfg2.N, (cfg2.win 2).flush t = true ∧ i ∈ ((cfg2.win 2).blk t).view.set := by
  have hN : cfg2.N = 10 := N_2
  have h0 : (i 0).val < 100000 := (i 0).isLt
  have h1 : (i 1).val < 40 := (i 1).isLt
  have hlt : (i 0).val / 10000 < cfg2.N := by rw [hN]; omega
  obtain ⟨-, -, -, -, e4, e5⟩ := idx_facts ⟨(i 0).val / 10000, hlt⟩
  refine ⟨⟨(i 0).val / 10000, hlt⟩, flush2_2 _, ?_⟩
  rw [mem_blk]
  intro a
  match a with
  | ⟨0, _⟩ =>
    show win2_2.index ⟨(i 0).val / 10000, hlt⟩ 0 * 10000 ≤ (i 0).val ∧ (i 0).val < win2_2.index ⟨(i 0).val / 10000, hlt⟩ 0 * 10000 + 10000
    rw [e4]; show (i 0).val / 10000 * 10000 ≤ (i 0).val ∧ (i 0).val < (i 0).val / 10000 * 10000 + 10000; omega
  | ⟨1, _⟩ =>
    show win2_2.index ⟨(i 0).val / 10000, hlt⟩ 1 * 40 ≤ (i 1).val ∧ (i 1).val < win2_2.index ⟨(i 0).val / 10000, hlt⟩ 1 * 40 + 40
    rw [e5]; omega

/-- After the region its output array is the stage's function of the arrays it found. -/
theorem final (c : Dev nD) :
    (dat2 V c).arrAt 2 cfg2.N = Cert.Gcn.dense (n := 100000) (k := 16) (f := 40) (V c main_v45) (V c main_arg4) :=
  (dat2 V c).arrAt_eq_of_cover 2 (Cert.Gcn.dense (n := 100000) (k := 16) (f := 40) (V c main_v45) (V c main_arg4))
    (fun t _ => flushed_eq V c t) cover

end Cert.KernelIdeal.Region2

end
-- ==== Proof.Region3.lean ====
/-
  The fourth region: the second bias added to the aggregated class scores and the row-wise logarithm of the softmax,
  10000 rows at a grid point.

  Grid point t stages rows 10000·t … of the aggregated scores and the bias laid out as one row. With z the staged rows
  plus the bias, the body takes each row's maximum M along the lanes, subtracts it, sums the exponentials of the
  differences along the lanes and subtracts the logarithm of that sum. Entry (p, q) of the block depends on row
  10000·t + p of the scores and on the bias only; the ten blocks tile the rows.
-/
import proofs.«118385_j64080912056900_1_alg».proof.Proof.Gen.KernelIdeal.Frame
import proofs.«118385_j64080912056900_1_alg».proof.Proof.LibRowStages
import Idealize.ShloMosaic.Lib.Pipeline.Value
import Idealize.ShloMosaic.Lib.ValueIdx

set_option maxRecDepth 16384

noncomputable section

open scoped BigOperators

namespace Cert.KernelIdeal.Region3

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body at (p, q): the row-wise logarithm of the softmax of the staged row p plus the bias. -/
theorem body_apply (x0 : Vec Ideal S10000x40 .f32) (x1 : Vec Ideal S1x40 .f32) (p : Fin 10000) (q : Fin 40) :
    k3_pay1 x0 x1 (ix2 p q) = Cert.Gcn.lsmRow (fun s => x0 (ix2 p s) + x1 (ix2 (0 : Fin 1) s)) q := by
  unfold k3_pay1
  refine (Cert.Gcn.logSoftmax_body _ _ _ _ _ _ _ p q).trans ?_
  exact congrArg (fun z => Cert.Gcn.lsmRow z q) (funext fun s => Cert.Gcn.addRow_apply x0 x1 _ _ _ p s)

/-- Where the three windows' blocks sit at grid point t: rows move with t, columns do not. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem row_lt (t : Fin cfg3.N) (p : Fin 10000) : t.val * 10000 + p.val < 100000 := by
  have hN : cfg3.N = 10 := N_3
  have := t.isLt; have := p.isLt; omega

/-- The staged block of the first operand at point t is rows 10000·t … of its array. -/
theorem blkX_apply (c : Dev nD) (t : Fin cfg3.N) (p : Fin 10000) (k : Fin 40) :
    (iblk3 V c 0 t : Vec Ideal S10000x40 .f32) (ix2 p k)
      = (V c main_v59 : S100000x40.Idx → EReal) (ix2 ⟨t.val * 10000 + p.val, row_lt t p⟩ k) := by
  obtain ⟨e0, e1, -⟩ := idx_facts t
  unfold iblk3
  rw [View.read_apply]
  show V c main_v59 _ = V c main_v59 _
  refine congrArg _ (funext fun a => Fin.ext ?_)
  match a with
  | ⟨0, _⟩ => show win3_0.index t 0 * 10000 + 1 * p.val = t.val * 10000 + p.val; rw [e0]; omega
  | ⟨1, _⟩ => show win3_0.index t 1 * 40 + 1 * k.val = k.val; rw [e1]; omega

/-- The staged row vector at any point is the whole one-row array. -/
theorem blkW_apply (c : Dev nD) (t : Fin cfg3.N) (u : Fin 1) (q : Fin 40) :
    (iblk3 V c 1 t : Vec Ideal S1x40 .f32) (ix2 u q) = (V c main_v60 : S1x40.Idx → EReal) (ix2 u q) := by
  obtain ⟨-, -, e2, e3, -⟩ := idx_facts t
  unfold iblk3
  rw [View.read_apply]
  show V c main_v60 _ = V c main_v60 _
  refine congrArg _ (funext fun a => Fin.ext ?_)
  match a with
  | ⟨0, _⟩ => show win3_1.index t 0 * 1 + 1 * u.val = u.val; rw [e2]; omega
  | ⟨1, _⟩ => show win3_1.index t 1 * 40 + 1 * q.val = q.val; rw [e3]; omega

/-- What point t writes back is block t of the stage's whole-array function. -/
theorem flushed_eq (c : Dev nD) (t : Fin cfg3.N) :
    (dat3 V c).flushed 2 t = ((cfg3.win 2).blk t).view.read (Elt Ideal)
      (Cert.Gcn.biasLogSoftmax (n := 100000) (f := 40) (V c main_v59) (V c main_v60)) := by
  show (cfg3.win 2).cut (grid3.coords t) ((dat3 V c).after 2 t) = _
  rw [after3_2]
  unfold out3_2
  rw [View.canon_unit_zero hz]
  simp only [View.ld_unit_zero (S := S10000x40) hz, View.ld_unit_zero (S := S1x40) hz]
  obtain ⟨-, -, -, -, e4, e5⟩ := idx_facts t
  funext j
  obtain ⟨p, q, rfl⟩ : ∃ (p : Fin 10000) (q : Fin 40), j = ix2 p q := ⟨j 0, j 1, eq_ix2 j⟩
  rw [View.read_apply]
  have hemb : ((cfg3.win 2).blk t).view.emb (ix2 p q) = (ix2 ⟨t.val * 10000 + p.val, row_lt t p⟩ q : S100000x40.Idx) :=
    funext fun a => Fin.ext (by
      match a with
      | ⟨0, _⟩ => show win3_2.index t 0 * 10000 + 1 * p.val = t.val * 10000 + p.val; rw [e4]; omega
      | ⟨1, _⟩ => show win3_2.index t 1 * 40 + 1 * q.val = q.val; rw [e5]; omega)
  show k3_pay1 (iblk3 V c 0 t) (iblk3 V c 1 t) (ix2 p q) = (Cert.Gcn.biasLogSoftmax (n := 100000) (f := 40) (V c main_v59) (V c main_v60)) _
  rw [hemb, Cert.Gcn.biasLogSoftmax_apply]
  refine (body_apply (iblk3 V c 0 t) (iblk3 V c 1 t) p q).trans ?_
  refine congrArg (fun z => Cert.Gcn.lsmRow z q) (funext fun s => ?_)
  rw [blkX_apply V c t p s, blkW_apply V c t 0 s]

/-- An index is in point t's output block iff each coordinate is in the block's range. -/
theorem mem_blk (t : Fin cfg3.N) (i : S100000x40.Idx) :
    i ∈ ((cfg3.win 2).blk t).view.set ↔ ∀ a : Fin 2, win3_2.index t a * S10000x40.size a ≤ (i a).val ∧ (i a).val < win3_2.index t a * S10000x40.size a + S10000x40.size a := by
  show i ∈ ((View.whole main_v61).slice (win3_2.rect t)).set ↔ _
  rw [View.set_slice_whole, Rect.mem_set_unit]
  exact Iff.rfl

/-- Every row is in the block of the point its number divided by 10000 names. -/
theorem cover (i : S100000x40.Idx) : ∃ t : Fin cfg3.N, (cfg3.win 2).flush t = true ∧ i ∈ ((cfg3.win 2).blk t).view.set := by
  have hN : cfg3.N = 10 := N_3
  have h0 : (i 0).val < 100000 := (i 0).isLt
  have h1 : (i 1).val < 40 := (i 1).isLt
  have hlt : (i 0).val / 10000 < cfg3.N := by rw [hN]; omega
  obtain ⟨-, -, -, -, e4, e5⟩ := idx_facts ⟨(i 0).val / 10000, hlt⟩
  refine ⟨⟨(i 0).val / 10000, hlt⟩, flush3_2 _, ?_⟩
  rw [mem_blk]
  intro a
  match a with
  | ⟨0, _⟩ =>
    show win3_2.index ⟨(i 0).val / 10000, hlt⟩ 0 * 10000 ≤ (i 0).val ∧ (i 0).val < win3_2.index ⟨(i 0).val / 10000, hlt⟩ 0 * 10000 + 10000
    rw [e4]; show (i 0).val / 10000 * 10000 ≤ (i 0).val ∧ (i 0).val < (i 0).val / 10000 * 10000 + 10000; omega
  | ⟨1, _⟩ =>
    show win3_2.index ⟨(i 0).val / 10000, hlt⟩ 1 * 40 ≤ (i 1).val ∧ (i 1).val < win3_2.index ⟨(i 0).val / 10000, hlt⟩ 1 * 40 + 40
    rw [e5]; omega

/-- After the region its output array is the stage's function of the arrays it found. -/
theorem final (c : Dev nD) :
    (dat3 V c).arrAt 2 cfg3.N = Cert.Gcn.biasLogSoftmax (n := 100000) (f := 40) (V c main_v59) (V c main_v60) :=
  (dat3 V c).arrAt_eq_of_cover 2 (Cert.Gcn.biasLogSoftmax (n := 100000) (f := 40) (V c main_v59) (V c main_v60))
    (fun t _ => flushed_eq V c t) cover

end Cert.KernelIdeal.Region3

end
-- ==== Proof.HostChains.lean ====
/-
  The host operations between the kernel regions, read as functions of the buffers they start from.

  Both programs prepare the graph in the same way — the source and target lists with one self-loop per node appended,
  the degree of every node, the per-edge weight 1/sqrt(deg(row))·1/sqrt(deg(col)) — and aggregate a feature matrix h
  in the same way: gather the rows h[col], scale each by its edge's weight, add them up per target node. Here each
  stretch of host operations of the kernel program is read off a valuation `W` of the buffers: what it leaves in the
  buffers the next region reads is the reference's own stage function of the same inputs. Nothing about gathers or
  scatters is opened: the two sides are one term.
-/
import proofs.«118385_j64080912056900_1_alg».proof.Proof.Gen.KernelIdeal.Launch
import proofs.«118385_j64080912056900_1_alg».proof.Proof.RefRead
import Idealize.ShloMosaic.Lib.StableHlo.Run

set_option maxRecDepth 16384

noncomputable section

namespace Cert.KernelIdeal.Chains

open Cert.KernelIdeal Cert.KernelIdeal.Gen
open Idealize.ShloMosaic Idealize.ShloMosaic.TcCoe Idealize.SL.Sem Idealize.ShloMosaic.StableHlo

variable {F : FTy → Type} [FloatOps F]
variable (W : Valuation τ sig (Elt F))

/-- The two lists joined by a concatenation are read by rewriting each earlier operation's result in turn. -/
macro "read_rest" : tactic =>
  `(tactic| repeat (first
      | rw [reshape_result] | rw [unary_result] | rw [binary_result] | rw [ternary_result] | rw [nullary_result]
      | (rw [reshape_result_ne]; rotate_left; decide) | (rw [unary_result_ne]; rotate_left; decide)
      | (rw [binary_result_ne]; rotate_left; decide) | (rw [ternary_result_ne]; rotate_left; decide)
      | (rw [nullary_result_ne]; rotate_left; decide)))

/-! ## Before the first region: the edge lists and the edge weights -/

/-- The target-node list (edge rows, then one self-loop per node). -/
theorem rows_eq :
    after hostOps0_2 (after hostOps0_1 (after hostOps0 W)) (Proc.devRef .tc main_v3)
      = Cert.ReferenceIdeal.ReadP.val_main_v3 (F := F) (W (Proc.devRef .tc main_arg1)) := by
  dsimp only [hostOps0, hostOps0_1, hostOps0_2]
  after_results_simp
  read_rest
  rfl

/-- The source-node list (edge columns, then one self-loop per node). -/
theorem cols_eq :
    after hostOps0_2 (after hostOps0_1 (after hostOps0 W)) (Proc.devRef .tc main_v6)
      = Cert.ReferenceIdeal.ReadP.val_main_v6 (F := F) (W (Proc.devRef .tc main_arg1)) := by
  dsimp only [hostOps0, hostOps0_1, hostOps0_2]
  after_results_simp
  read_rest
  rfl

/-- The per-edge weights. -/
theorem weights_eq :
    after hostOps0_2 (after hostOps0_1 (after hostOps0 W)) (Proc.devRef .tc main_v29)
      = Cert.ReferenceIdeal.ReadP.val_main_v29 (F := F) (W (Proc.devRef .tc main_arg1)) := by
  dsimp only [hostOps0, hostOps0_1, hostOps0_2]
  after_results_simp
  read_rest
  rfl

/-- No operation before the first region writes an argument. -/
theorem pre_arg0 : after hostOps0_2 (after hostOps0_1 (after hostOps0 W)) (Proc.devRef .tc main_arg0) = W (Proc.devRef .tc main_arg0) := by
  dsimp only [hostOps0, hostOps0_1, hostOps0_2]; after_results_simp
theorem pre_arg2 : after hostOps0_2 (after hostOps0_1 (after hostOps0 W)) (Proc.devRef .tc main_arg2) = W (Proc.devRef .tc main_arg2) := by
  dsimp only [hostOps0, hostOps0_1, hostOps0_2]; after_results_simp
theorem pre_arg3 : after hostOps0_2 (after hostOps0_1 (after hostOps0 W)) (Proc.devRef .tc main_arg3) = W (Proc.devRef .tc main_arg3) := by
  dsimp only [hostOps0, hostOps0_1, hostOps0_2]; after_results_simp
theorem pre_arg4 : after hostOps0_2 (after hostOps0_1 (after hostOps0 W)) (Proc.devRef .tc main_arg4) = W (Proc.devRef .tc main_arg4) := by
  dsimp only [hostOps0, hostOps0_1, hostOps0_2]; after_results_simp
theorem pre_arg5 : after hostOps0_2 (after hostOps0_1 (after hostOps0 W)) (Proc.devRef .tc main_arg5) = W (Proc.devRef .tc main_arg5) := by
  dsimp only [hostOps0, hostOps0_1, hostOps0_2]; after_results_simp

/-! ## Between the first and the second region: the first layer's aggregation -/

/-- The first layer's aggregated features, from a valuation holding the edge lists, the weights and the first dense
    product at the reference's stages. -/
theorem agg1_eq (x0 : (⟨Cert.ReferenceIdeal.S100000x512, .f32⟩ : BufTy).Contents (Elt F))
    (x1 : (⟨Cert.ReferenceIdeal.S2x3200000, .i32⟩ : BufTy).Contents (Elt F))
    (x2 : (⟨Cert.ReferenceIdeal.S512x16, .f32⟩ : BufTy).Contents (Elt F))
    (h3 : W (Proc.devRef .tc main_v3) = Cert.ReferenceIdeal.ReadP.val_main_v3 (F := F) x1)
    (h6 : W (Proc.devRef .tc main_v6) = Cert.ReferenceIdeal.ReadP.val_main_v6 (F := F) x1)
    (h29 : W (Proc.devRef .tc main_v29) = Cert.ReferenceIdeal.ReadP.val_main_v29 (F := F) x1)
    (h30 : W (Proc.devRef .tc main_v30) = Cert.ReferenceIdeal.ReadP.val_main_v30 (F := F) x0 x2) :
    after hostOps1 W (Proc.devRef .tc main_v43) = Cert.ReferenceIdeal.ReadP.val_main_v43 (F := F) x0 x1 x2 := by
  dsimp only [hostOps1]
  after_results_simp
  rw [h3, h6, h29, h30]
  rfl

/-- The first bias, laid out as one row. -/
theorem bias1_eq : after hostOps1 W (Proc.devRef .tc main_v44)
    = shapeCast S1x16 (W (Proc.devRef .tc main_arg3)) Facts₀.shapeCasts_S16_S1x16 := by
  dsimp only [hostOps1]
  after_results_simp
  rfl

/-- What the first aggregation leaves alone. -/
theorem mid1_v3 : after hostOps1 W (Proc.devRef .tc main_v3) = W (Proc.devRef .tc main_v3) := by
  dsimp only [hostOps1]; after_results_simp
theorem mid1_v6 : after hostOps1 W (Proc.devRef .tc main_v6) = W (Proc.devRef .tc main_v6) := by
  dsimp only [hostOps1]; after_results_simp
theorem mid1_v29 : after hostOps1 W (Proc.devRef .tc main_v29) = W (Proc.devRef .tc main_v29) := by
  dsimp only [hostOps1]; after_results_simp
theorem mid1_arg4 : after hostOps1 W (Proc.devRef .tc main_arg4) = W (Proc.devRef .tc main_arg4) := by
  dsimp only [hostOps1]; after_results_simp
theorem mid1_arg5 : after hostOps1 W (Proc.devRef .tc main_arg5) = W (Proc.devRef .tc main_arg5) := by
  dsimp only [hostOps1]; after_results_simp

/-! ## Between the third and the fourth region: the second layer's aggregation -/

/-- The second layer's aggregated features, from a valuation holding the edge lists, the weights and the second dense
    product at the reference's stages. -/
theorem agg2_eq (x0 : (⟨Cert.ReferenceIdeal.S100000x512, .f32⟩ : BufTy).Contents (Elt F))
    (x1 : (⟨Cert.ReferenceIdeal.S2x3200000, .i32⟩ : BufTy).Contents (Elt F))
    (x2 : (⟨Cert.ReferenceIdeal.S512x16, .f32⟩ : BufTy).Contents (Elt F))
    (x3 : (⟨Cert.ReferenceIdeal.S16, .f32⟩ : BufTy).Contents (Elt F))
    (x4 : (⟨Cert.ReferenceIdeal.S16x40, .f32⟩ : BufTy).Contents (Elt F))
    (h3 : W (Proc.devRef .tc main_v3) = Cert.ReferenceIdeal.ReadP.val_main_v3 (F := F) x1)
    (h6 : W (Proc.devRef .tc main_v6) = Cert.ReferenceIdeal.ReadP.val_main_v6 (F := F) x1)
    (h29 : W (Proc.devRef .tc main_v29) = Cert.ReferenceIdeal.ReadP.val_main_v29 (F := F) x1)
    (h46 : W (Proc.devRef .tc main_v46) = Cert.ReferenceIdeal.ReadP.val_main_v48 (F := F) x0 x1 x2 x3 x4) :
    after hostOps3 W (Proc.devRef .tc main_v59) = Cert.ReferenceIdeal.ReadP.val_main_v61 (F := F) x0 x1 x2 x3 x4 := by
  dsimp only [hostOps3]
  after_results_simp
  rw [h3, h6, h29, h46]
  rfl

/-- The second bias, laid out as one row. -/
theorem bias2_eq : after hostOps3 W (Proc.devRef .tc main_v60)
    = shapeCast S1x40 (W (Proc.devRef .tc main_arg5)) Facts₀.shapeCasts_S40_S1x40 := by
  dsimp only [hostOps3]
  after_results_simp
  rfl

end Cert.KernelIdeal.Chains

end
-- ==== Proof.RefStages.lean ====
/-
  The reference's stages as the whole-array functions of LibRowStages.lean.

  The reference computes x · W1 by one host matrix product, adds the first bias (a vector laid out as one row and
  repeated down the rows) and clamps at zero, computes the second product, adds the second bias and takes the row-wise
  logarithm of the softmax (row maximum, subtraction, exponentials, row sum, logarithm, subtraction). Read at a
  coordinate pair each stage is the corresponding function of its inputs; the aggregation stages in between are left
  closed.
-/
import proofs.«118385_j64080912056900_1_alg».proof.Proof.RefRead
import proofs.«118385_j64080912056900_1_alg».proof.Proof.LibRowStages

set_option maxRecDepth 16384

noncomputable section

open scoped BigOperators

namespace Cert.ReferenceIdeal.Stages

open Cert.ReferenceIdeal Cert.ReferenceIdeal.ReadP
open Idealize.ShloMosaic Idealize.ShloMosaic.ValueIdx

variable (x0 : (⟨S100000x512, .f32⟩ : BufTy).Contents (Elt Ideal)) (x1 : (⟨S2x3200000, .i32⟩ : BufTy).Contents (Elt Ideal))
  (x2 : (⟨S512x16, .f32⟩ : BufTy).Contents (Elt Ideal)) (x3 : (⟨S16, .f32⟩ : BufTy).Contents (Elt Ideal))
  (x4 : (⟨S16x40, .f32⟩ : BufTy).Contents (Elt Ideal)) (x5 : (⟨S40, .f32⟩ : BufTy).Contents (Elt Ideal))

/-- The first dense product. -/
theorem dense1_eq : val_main_v30 (F := Ideal) x0 x2 = Cert.Gcn.dense (n := 100000) (k := 512) (f := 16) x0 x2 := by
  funext i
  obtain ⟨p, q, rfl⟩ : ∃ (p : Fin 100000) (q : Fin 16), i = ix2 p q := ⟨i 0, i 1, eq_ix2 i⟩
  rw [val_main_v30_apply, Cert.Gcn.dense_apply]
  refine Finset.sum_congr rfl fun k _ => ?_
  have el : lidx_main_v30 (ix2 p q) k = ix2 p k := funext fun a => Fin.ext (by match a with | ⟨0, _⟩ => rfl | ⟨1, _⟩ => rfl)
  have er : ridx_main_v30 (ix2 p q) k = ix2 k q := funext fun a => Fin.ext (by match a with | ⟨0, _⟩ => rfl | ⟨1, _⟩ => rfl)
  rw [el, er]

/-- The second dense product, of whatever the hidden features are. -/
theorem dense2_eq : val_main_v48 (F := Ideal) x0 x1 x2 x3 x4
    = Cert.Gcn.dense (n := 100000) (k := 16) (f := 40) (val_main_v47 (F := Ideal) x0 x1 x2 x3) x4 := by
  funext i
  obtain ⟨p, q, rfl⟩ : ∃ (p : Fin 100000) (q : Fin 40), i = ix2 p q := ⟨i 0, i 1, eq_ix2 i⟩
  rw [val_main_v48_apply, Cert.Gcn.dense_apply]
  refine Finset.sum_congr rfl fun k _ => ?_
  have el : lidx_main_v48 (ix2 p q) k = ix2 p k := funext fun a => Fin.ext (by match a with | ⟨0, _⟩ => rfl | ⟨1, _⟩ => rfl)
  have er : ridx_main_v48 (ix2 p q) k = ix2 k q := funext fun a => Fin.ext (by match a with | ⟨0, _⟩ => rfl | ⟨1, _⟩ => rfl)
  rw [el, er]

/-- The first bias repeated down the rows, read at (p, q): the bias vector at q — which is also what the vector laid
    out as one row holds at (0, q). -/
theorem bias1_apply (h : S16.ShapeCasts S1x16) (p : Fin 100000) (q : Fin 16) :
    val_main_v45 (F := Ideal) x3 (ix2 p q) = shapeCast S1x16 x3 h (ix2 (0 : Fin 1) q) := by
  unfold val_main_v45 val_main_v44
  rw [broadcastInDim_1b_ab_apply _ _ rfl, broadcastInDim_b_1b_apply _ _ rfl, shapeCast_a_1a_apply]

/-- The second bias repeated down the rows, read at (p, q). -/
theorem bias2_apply (h : S40.ShapeCasts S1x40) (p : Fin 100000) (q : Fin 40) :
    val_main_v63 (F := Ideal) x5 (ix2 p q) = shapeCast S1x40 x5 h (ix2 (0 : Fin 1) q) := by
  unfold val_main_v63 val_main_v62
  rw [broadcastInDim_1b_ab_apply _ _ rfl, broadcastInDim_b_1b_apply _ _ rfl, shapeCast_a_1a_apply]

/-- The hidden features: the first aggregation plus the bias, clamped at zero. -/
theorem hidden_eq (h : S16.ShapeCasts S1x16) : val_main_v47 (F := Ideal) x0 x1 x2 x3
    = Cert.Gcn.biasRelu (n := 100000) (f := 16) (val_main_v43 (F := Ideal) x0 x1 x2) (shapeCast S1x16 x3 h) := by
  funext i
  obtain ⟨p, q, rfl⟩ : ∃ (p : Fin 100000) (q : Fin 16), i = ix2 p q := ⟨i 0, i 1, eq_ix2 i⟩
  rw [Cert.Gcn.biasRelu_apply, val_main_v47_apply, val_main_v46_apply, bias1_apply x3 h p q]
  have e0 : val_main_call1_v0 (F := Ideal) (ix2 p q) = Cert.Gcn.zeroVal := by
    unfold val_main_call1_v0 val_main_call1_cst
    rw [broadcastInDim_scalar_apply]
    rfl
  rw [e0]
  generalize val_main_v43 (F := Ideal) x0 x1 x2 (ix2 p q) = u
  generalize shapeCast S1x16 x3 h (ix2 (0 : Fin 1) q) = w
  rfl

/-- The scores before the softmax: the second aggregation plus the bias. -/
theorem scores_apply (h : S40.ShapeCasts S1x40) (p : Fin 100000) (t : Fin 40) :
    val_main_v64 (F := Ideal) x0 x1 x2 x3 x4 x5 (ix2 p t)
      = val_main_v61 (F := Ideal) x0 x1 x2 x3 x4 (ix2 p t) + shapeCast S1x40 x5 h (ix2 (0 : Fin 1) t) := by
  rw [val_main_v64_apply, bias2_apply x5 h p t]
  generalize val_main_v61 (F := Ideal) x0 x1 x2 x3 x4 (ix2 p t) = u
  generalize shapeCast S1x40 x5 h (ix2 (0 : Fin 1) t) = w
  rfl

/-- The logarithm of the softmax of whatever the scores are. -/
theorem softmax_of_scores (p : Fin 100000) (q : Fin 40) :
    val_main_v65 (F := Ideal) x0 x1 x2 x3 x4 x5 (ix2 p q)
      = Cert.Gcn.lsmRow (fun t => val_main_v64 (F := Ideal) x0 x1 x2 x3 x4 x5 (ix2 p t)) q := by
  unfold val_main_v65 val_main_call2_v10 val_main_call2_v9 val_main_call2_v8 val_main_call2_v7 val_main_call2_v6
    val_main_call2_v5 val_main_call2_v4 val_main_call2_v3 val_main_call2_v2 val_main_call2_v1 val_main_call2_v0
    val_main_call2_cst val_main_call2_cst_0 val_main_call2_cst_1
  generalize val_main_v64 (F := Ideal) x0 x1 x2 x3 x4 x5 = z
  exact Cert.Gcn.logSoftmax_host (a := 100000) (b := 40) z Facts₀.reducesTo_S100000x40_S100000_d1 (by decide) Facts₀.h_S_
    ![] Facts₀.bcast_S_S100000 ![0] Facts₀.bcast_S100000_S100000x1_0 rfl ![0, 1] Facts₀.bcast_S100000x1_S100000x40_0_1 rfl p q

/-- The result: the second aggregation plus the bias, then the row-wise logarithm of the softmax. -/
theorem result_eq (h : S40.ShapeCasts S1x40) : val_main_v65 (F := Ideal) x0 x1 x2 x3 x4 x5
    = Cert.Gcn.biasLogSoftmax (n := 100000) (f := 40) (val_main_v61 (F := Ideal) x0 x1 x2 x3 x4) (shapeCast S1x40 x5 h) := by
  funext i
  obtain ⟨p, q, rfl⟩ : ∃ (p : Fin 100000) (q : Fin 40), i = ix2 p q := ⟨i 0, i 1, eq_ix2 i⟩
  rw [Cert.Gcn.biasLogSoftmax_apply, softmax_of_scores]
  exact congrArg (fun z => Cert.Gcn.lsmRow z q) (funext fun t => scores_apply x0 x1 x2 x3 x4 x5 h p t)

end Cert.ReferenceIdeal.Stages

end
-- ==== Proof.KernelValue.lean ====
/-
  The idealized kernel program's result array as one function of the six arguments: the reference's own last stage.

  The boundary valuations of @main are followed from the launch to the return. Before the first region the host
  operations leave the edge lists and the edge weights (functions of the edge index argument alone) and do not touch the
  arguments. The first region leaves x · W1 in its output array; the next stretch aggregates it over the edges and lays
  the first bias out as a row; the second region adds the bias and clamps at zero; the third multiplies by W2; the last
  stretch aggregates again and lays the second bias out; the fourth region adds it and takes the row-wise logarithm of
  the softmax. At every boundary the buffers that matter hold the reference's stage of the same arguments, so the last
  region's output array is the reference's result.
-/
import proofs.«118385_j64080912056900_1_alg».proof.Proof.Region0
import proofs.«118385_j64080912056900_1_alg».proof.Proof.Region1
import proofs.«118385_j64080912056900_1_alg».proof.Proof.Region2
import proofs.«118385_j64080912056900_1_alg».proof.Proof.Region3
import proofs.«118385_j64080912056900_1_alg».proof.Proof.HostChains
import proofs.«118385_j64080912056900_1_alg».proof.Proof.RefStages

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The six arguments as launched. -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)

/-! ## Entering the first region -/

theorem in0_rows : W3 m ρ c (Proc.devRef .tc main_v3) = Cert.ReferenceIdeal.ReadP.val_main_v3 (F := Ideal) (a1 m c) := Chains.rows_eq (W0 m ρ c)
theorem in0_cols : W3 m ρ c (Proc.devRef .tc main_v6) = Cert.ReferenceIdeal.ReadP.val_main_v6 (F := Ideal) (a1 m c) := Chains.cols_eq (W0 m ρ c)
theorem in0_weights : W3 m ρ c (Proc.devRef .tc main_v29) = Cert.ReferenceIdeal.ReadP.val_main_v29 (F := Ideal) (a1 m c) := Chains.weights_eq (W0 m ρ c)
theorem in0_arg0 : W3 m ρ c (Proc.devRef .tc main_arg0) = a0 m c := Chains.pre_arg0 (W0 m ρ c)
theorem in0_arg2 : W3 m ρ c (Proc.devRef .tc main_arg2) = a2 m c := Chains.pre_arg2 (W0 m ρ c)
theorem in0_arg3 : W3 m ρ c (Proc.devRef .tc main_arg3) = a3 m c := Chains.pre_arg3 (W0 m ρ c)
theorem in0_arg4 : W3 m ρ c (Proc.devRef .tc main_arg4) = a4 m c := Chains.pre_arg4 (W0 m ρ c)
theorem in0_arg5 : W3 m ρ c (Proc.devRef .tc main_arg5) = a5 m c := Chains.pre_arg5 (W0 m ρ c)

/-! ## Leaving the first region -/

theorem out0_dense : W4 m ρ c (Proc.devRef .tc main_v30) = Cert.ReferenceIdeal.ReadP.val_main_v30 (F := Ideal) (a0 m c) (a2 m c) := by
  refine (W4_arr m ρ c 2).trans ((Region0.final (V3 m ρ) c).trans ?_)
  rw [Cert.ReferenceIdeal.Stages.dense1_eq]
  exact congrArg₂ (Cert.Gcn.dense (n := 100000) (k := 512) (f := 16)) (in0_arg0 m ρ c) (in0_arg2 m ρ c)
theorem out0_rows : W4 m ρ c (Proc.devRef .tc main_v3) = Cert.ReferenceIdeal.ReadP.val_main_v3 (F := Ideal) (a1 m c) :=
  (W4_of_ne m ρ c main_v3 (by decide)).trans (in0_rows m ρ c)
theorem out0_cols : W4 m ρ c (Proc.devRef .tc main_v6) = Cert.ReferenceIdeal.ReadP.val_main_v6 (F := Ideal) (a1 m c) :=
  (W4_of_ne m ρ c main_v6 (by decide)).trans (in0_cols m ρ c)
theorem out0_weights : W4 m ρ c (Proc.devRef .tc main_v29) = Cert.ReferenceIdeal.ReadP.val_main_v29 (F := Ideal) (a1 m c) :=
  (W4_of_ne m ρ c main_v29 (by decide)).trans (in0_weights m ρ c)
theorem out0_arg3 : W4 m ρ c (Proc.devRef .tc main_arg3) = a3 m c := (W4_of_ne m ρ c main_arg3 (by decide)).trans (in0_arg3 m ρ c)
theorem out0_arg4 : W4 m ρ c (Proc.devRef .tc main_arg4) = a4 m c := (W4_of_ne m ρ c main_arg4 (by decide)).trans (in0_arg4 m ρ c)
theorem out0_arg5 : W4 m ρ c (Proc.devRef .tc main_arg5) = a5 m c := (W4_of_ne m ρ c main_arg5 (by decide)).trans (in0_arg5 m ρ c)

/-! ## Entering the second region -/

theorem in1_agg : W5 m ρ c (Proc.devRef .tc main_v43) = Cert.ReferenceIdeal.ReadP.val_main_v43 (F := Ideal) (a0 m c) (a1 m c) (a2 m c) :=
  Chains.agg1_eq (W4 m ρ c) (a0 m c) (a1 m c) (a2 m c) (out0_rows m ρ c) (out0_cols m ρ c) (out0_weights m ρ c) (out0_dense m ρ c)
theorem in1_bias : W5 m ρ c (Proc.devRef .tc main_v44) = shapeCast S1x16 (a3 m c) Facts₀.shapeCasts_S16_S1x16 :=
  (Chains.bias1_eq (W4 m ρ c)).trans (congrArg (fun x => shapeCast S1x16 x Facts₀.shapeCasts_S16_S1x16) (out0_arg3 m ρ c))
theorem in1_rows : W5 m ρ c (Proc.devRef .tc main_v3) = Cert.ReferenceIdeal.ReadP.val_main_v3 (F := Ideal) (a1 m c) := (Chains.mid1_v3 (W4 m ρ c)).trans (out0_rows m ρ c)
theorem in1_cols : W5 m ρ c (Proc.devRef .tc main_v6) = Cert.ReferenceIdeal.ReadP.val_main_v6 (F := Ideal) (a1 m c) := (Chains.mid1_v6 (W4 m ρ c)).trans (out0_cols m ρ c)
theorem in1_weights : W5 m ρ c (Proc.devRef .tc main_v29) = Cert.ReferenceIdeal.ReadP.val_main_v29 (F := Ideal) (a1 m c) := (Chains.mid1_v29 (W4 m ρ c)).trans (out0_weights m ρ c)
theorem in1_arg4 : W5 m ρ c (Proc.devRef .tc main_arg4) = a4 m c := (Chains.mid1_arg4 (W4 m ρ c)).trans (out0_arg4 m ρ c)
theorem in1_arg5 : W5 m ρ c (Proc.devRef .tc main_arg5) = a5 m c := (Chains.mid1_arg5 (W4 m ρ c)).trans (out0_arg5 m ρ c)

/-! ## Leaving the second region -/

theorem out1_hidden : W6 m ρ c (Proc.devRef .tc main_v45) = Cert.ReferenceIdeal.ReadP.val_main_v47 (F := Ideal) (a0 m c) (a1 m c) (a2 m c) (a3 m c) := by
  refine (W6_arr m ρ c 2).trans ((Region1.final (V5 m ρ) c).trans ?_)
  rw [Cert.ReferenceIdeal.Stages.hidden_eq (a0 m c) (a1 m c) (a2 m c) (a3 m c) Facts₀.shapeCasts_S16_S1x16]
  exact congrArg₂ (Cert.Gcn.biasRelu (n := 100000) (f := 16)) (in1_agg m ρ c) (in1_bias m ρ c)
theorem out1_rows : W6 m ρ c (Proc.devRef .tc main_v3) = Cert.ReferenceIdeal.ReadP.val_main_v3 (F := Ideal) (a1 m c) := (W6_of_ne m ρ c main_v3 (by decide)).trans (in1_rows m ρ c)
theorem out1_cols : W6 m ρ c (Proc.devRef .tc main_v6) = Cert.ReferenceIdeal.ReadP.val_main_v6 (F := Ideal) (a1 m c) := (W6_of_ne m ρ c main_v6 (by decide)).trans (in1_cols m ρ c)
theorem out1_weights : W6 m ρ c (Proc.devRef .tc main_v29) = Cert.ReferenceIdeal.ReadP.val_main_v29 (F := Ideal) (a1 m c) := (W6_of_ne m ρ c main_v29 (by decide)).trans (in1_weights m ρ c)
theorem out1_arg4 : W6 m ρ c (Proc.devRef .tc main_arg4) = a4 m c := (W6_of_ne m ρ c main_arg4 (by decide)).trans (in1_arg4 m ρ c)
theorem out1_arg5 : W6 m ρ c (Proc.devRef .tc main_arg5) = a5 m c := (W6_of_ne m ρ c main_arg5 (by decide)).trans (in1_arg5 m ρ c)

/-! ## Leaving the third region -/

theorem out2_dense : W7 m ρ c (Proc.devRef .tc main_v46) = Cert.ReferenceIdeal.ReadP.val_main_v48 (F := Ideal) (a0 m c) (a1 m c) (a2 m c) (a3 m c) (a4 m c) := by
  refine (W7_arr m ρ c 2).trans ((Region2.final (V6 m ρ) c).trans ?_)
  rw [Cert.ReferenceIdeal.Stages.dense2_eq]
  exact congrArg₂ (Cert.Gcn.dense (n := 100000) (k := 16) (f := 40)) (out1_hidden m ρ c) (out1_arg4 m ρ c)
theorem out2_rows : W7 m ρ c (Proc.devRef .tc main_v3) = Cert.ReferenceIdeal.ReadP.val_main_v3 (F := Ideal) (a1 m c) := (W7_of_ne m ρ c main_v3 (by decide)).trans (out1_rows m ρ c)
theorem out2_cols : W7 m ρ c (Proc.devRef .tc main_v6) = Cert.ReferenceIdeal.ReadP.val_main_v6 (F := Ideal) (a1 m c) := (W7_of_ne m ρ c main_v6 (by decide)).trans (out1_cols m ρ c)
theorem out2_weights : W7 m ρ c (Proc.devRef .tc main_v29) = Cert.ReferenceIdeal.ReadP.val_main_v29 (F := Ideal) (a1 m c) := (W7_of_ne m ρ c main_v29 (by decide)).trans (out1_weights m ρ c)
theorem out2_arg5 : W7 m ρ c (Proc.devRef .tc main_arg5) = a5 m c := (W7_of_ne m ρ c main_arg5 (by decide)).trans (out1_arg5 m ρ c)

/-! ## Entering and leaving the fourth region -/

theorem in3_agg : W8 m ρ c (Proc.devRef .tc main_v59) = Cert.ReferenceIdeal.ReadP.val_main_v61 (F := Ideal) (a0 m c) (a1 m c) (a2 m c) (a3 m c) (a4 m c) :=
  Chains.agg2_eq (W7 m ρ c) (a0 m c) (a1 m c) (a2 m c) (a3 m c) (a4 m c) (out2_rows m ρ c) (out2_cols m ρ c) (out2_weights m ρ c) (out2_dense m ρ c)
theorem in3_bias : W8 m ρ c (Proc.devRef .tc main_v60) = shapeCast S1x40 (a5 m c) Facts₀.shapeCasts_S40_S1x40 :=
  (Chains.bias2_eq (W7 m ρ c)).trans (congrArg (fun x => shapeCast S1x40 x Facts₀.shapeCasts_S40_S1x40) (out2_arg5 m ρ c))

/-- The result array after the run is the reference's last stage of the six arguments. -/
theorem result : W9 m ρ c (Proc.devRef .tc main_v61)
    = Cert.ReferenceIdeal.ReadP.val_main_v65 (F := Ideal) (a0 m c) (a1 m c) (a2 m c) (a3 m c) (a4 m c) (a5 m c) := by
  refine (W9_arr m ρ c 2).trans ((Region3.final (V8 m ρ) c).trans ?_)
  rw [Cert.ReferenceIdeal.Stages.result_eq (a0 m c) (a1 m c) (a2 m c) (a3 m c) (a4 m c) (a5 m c) Facts₀.shapeCasts_S40_S1x40]
  exact congrArg₂ (Cert.Gcn.biasLogSoftmax (n := 100000) (f := 40)) (in3_agg m ρ c) (in3_bias m ρ c)

end Cert.KernelIdeal.Whole

end
-- ==== Proof.lean ====
/-
  A two-layer graph convolution (dense product, edge aggregation, bias and clamp; dense product, edge aggregation, bias
  and the row-wise logarithm of the softmax) computed by four tiled kernels with the edge aggregation on the host,
  against the same network computed on the host throughout.

  Over the extended reals the two programs compute the same function of the six arguments. The edge preparation and the
  two aggregations are the same host operations on both sides and are never opened. Each kernel region tiles the
  100000 node rows; what a grid point writes back is the rows of that tile of ONE whole-array function of the region's
  inputs — the matrix product for the two dense regions (rounding the operands to a narrower format is the identity on
  the extended reals, and a product accumulated from zero is the plain sum of products), the bias added and the maximum
  with zero for the second region, the bias added and (z − max z) − log Σ exp (z − max z) along each row for the
  fourth — and the tiles cover every row, so each region's output array is that function of its input arrays. The
  reference's stages are the same four functions: its host products are the same sums, its bias is the same vector
  repeated down the rows, and its softmax subtracts the same row maximum (the extra maximum with the least value it
  takes changes nothing). No finiteness of the inputs is used.

  The three frames are the generated ones (the reference's is its run with the result dropped); nothing was rewritten
  by the idealization, so the preservation claim is trivial.
-/
import proofs.«118385_j64080912056900_1_alg».proof.Defs
import proofs.«118385_j64080912056900_1_alg».proof.Proof.Gen.Kernel
import proofs.«118385_j64080912056900_1_alg».proof.Proof.Gen.Kernel.Skeleton
import proofs.«118385_j64080912056900_1_alg».proof.Proof.Gen.Kernel.Launch
import proofs.«118385_j64080912056900_1_alg».proof.Proof.Gen.Kernel.Points
import proofs.«118385_j64080912056900_1_alg».proof.Proof.Gen.Kernel.Frame
import proofs.«118385_j64080912056900_1_alg».proof.Proof.Gen.KernelIdeal
import proofs.«118385_j64080912056900_1_alg».proof.Proof.Gen.KernelIdeal.Skeleton
import proofs.«118385_j64080912056900_1_alg».proof.Proof.Gen.KernelIdeal.Launch
import proofs.«118385_j64080912056900_1_alg».proof.Proof.Gen.KernelIdeal.Points
import proofs.«118385_j64080912056900_1_alg».proof.Proof.Gen.KernelIdeal.Frame
import proofs.«118385_j64080912056900_1_alg».proof.Proof.Gen.ReferenceIdeal
import proofs.«118385_j64080912056900_1_alg».proof.Proof.Gen.Pre_finite_inputs
import proofs.«118385_j64080912056900_1_alg».proof.Proof.RefRun
import proofs.«118385_j64080912056900_1_alg».proof.Proof.RefRead
import proofs.«118385_j64080912056900_1_alg».proof.Proof.RefValue
import proofs.«118385_j64080912056900_1_alg».proof.Proof.KernelRun
import proofs.«118385_j64080912056900_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference's frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Whole.run (F := Ideal) m ρ)

/-- From memories agreeing on the arguments both programs end with the result array at the reference's last stage of
    the kernel program's arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.ReferenceIdeal.ReadP.val_main_v65 (F := Ideal) (Cert.KernelIdeal.Whole.a0 m c) (Cert.KernelIdeal.Whole.a1 m c)
      (Cert.KernelIdeal.Whole.a2 m c) (Cert.KernelIdeal.Whole.a3 m c) (Cert.KernelIdeal.Whole.a4 m c) (Cert.KernelIdeal.Whole.a5 m c), ?_, ?_⟩
  · exact (θ_run Cert.KernelIdeal.defs _ _).mono (fun r h c => ⟨(h c).1.trans (Cert.KernelIdeal.Whole.result m ρ c), (h c).2⟩)
      (Cert.KernelIdeal.Result.run (F := Ideal) m ρ)
  · refine (θ_run Cert.ReferenceIdeal.defs _ _).mono (fun _ h c => ⟨(h c).1.trans ?_, (h c).2⟩)
      (Cert.ReferenceIdeal.Whole.run (F := Ideal) m' ρ')
    rw [(hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
